-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x16384 .f32) (main_arg1 : FVec F S16384x128 .f32) (main_arg2 : FVec F S128x128 .f32) (main_arg3 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x16384 : Shape := ⟨2, ![16384, 16384]⟩
abbrev S16384x128 : Shape := ⟨2, ![16384, 128]⟩
abbrev S128x128 : Shape := ⟨2, ![128, 128]⟩
abbrev S1024x2048 : Shape := ⟨2, ![1024, 2048]⟩
abbrev S1024x128 : Shape := ⟨2, ![1024, 128]⟩
abbrev S2048x128 : Shape := ⟨2, ![2048, 128]⟩

abbrev nBuf : Space → Nat
  | .hbm => 8
  | .vmem => 14
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S16384x128, .bf16⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S128x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x2048, .f32⟩
  | .local _ .vmem, ⟨8, _⟩ => ⟨S1024x2048, .f32⟩
  | .local _ .vmem, ⟨9, _⟩ => ⟨S16384x128, .bf16⟩
  | .local _ .vmem, ⟨10, _⟩ => ⟨S128x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S1024x128_S1024x128_0_0 : (Rect.unit (s := S1024x128) ![0, 0] S1024x128.size inb_S1024x128_S1024x128_0_0).PackedRows (EltTy.packing .bf16)
  shapeCasts_S2048x128_S2048x128 : S2048x128.ShapeCasts S2048x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .bf16 = 32 ∨ (Rect.block (s := S16384x128) S1024x128.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S16384x128, .f32⟩
  | .hbm, ⟨5, _⟩ => ⟨S128x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S128x128, .f32⟩
  | .hbm, ⟨12, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.KbR0Base.lean ====
/-
  The first aggregation call, point by point: what its body finds and what the three kinds of point are.

  The call walks a 16 × 8 grid: point t is row block t / 8 (1024 rows of A) and column block k = t % 8 (2048 columns of A).
  A 1024 × 128 scratch carries the running total of a row block across its eight column blocks. At k = 0 the body zeroes
  the scratch and adds the first block's product; at 0 < k < 7 it adds the block's product; at k = 7 it adds the last
  product, multiplies the total by the weight and stores the row block's result. Stated here: each window's block as read
  off the array the call finds, that an input's staging buffer holds that block at every point, the two branch conditions
  in closed form over the grid, where the result window is left untouched and not written back, and the buffers the body
  may use beside its windows.
-/
import proofs.«119406_j84456236909326_2_alg».proof.Proof.Gen.Kernel.Launch
import proofs.«119406_j84456236909326_2_alg».proof.Proof.Gen.Kernel.Skeleton
import proofs.«119406_j84456236909326_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the core's buffer contents when the call is entered: a parameter, fixed by the run
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the A window holds the point's block of A at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the feature window holds the whole feature matrix at every point: it is fetched once and its block
    index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight window holds the whole weight matrix at every point, likewise. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions -/

/-- "This is the row block's first column block": the body's first test, from the grid coordinates. -/
abbrev condFirst (i : grid0.Coords) : Prop := (Scalar.cmpi .ne (Scalar.extui (Scalar.cmpi .eq (BitVec.ofNat 32 (i 1).val) 0#32)) 0#32) = 1#1
/-- It holds exactly at the points with k = 0. -/
theorem hcondFirst : ∀ t : Fin cfg0.N, condFirst (grid0.coords t) ↔ t.val % 8 = 0 :=
  (by decide +kernel : ∀ t : Fin grid0.N, condFirst (grid0.coords t) ↔ t.val % 8 = 0)

/-- "This is the row block's last column block": the body's second test. -/
abbrev condLast (i : grid0.Coords) : Prop := k0_cond2 i = 1#1
/-- It holds exactly at the points with k = 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last column block the body stores nothing into the result window, -/
theorem idle_3 : ∀ t : Fin cfg0.N, ¬condLast (grid0.coords t) → cfg0.idle 3 (grid0.coords t) = true := by decide +kernel
/-- and the pipeline does not write the window back there; -/
theorem noFlush_3 : ∀ t : Fin cfg0.N, ¬condLast (grid0.coords t) → (cfg0.win 3).flush t = false := by decide +kernel
/-- at the last column block the body stores the whole block. -/
theorem live_3 : ∀ t : Fin cfg0.N, condLast (grid0.coords t) → cfg0.idle 3 (grid0.coords t) = false := by decide +kernel

/-! ## The memrefs the body is called with -/

abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S16384x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .bf16 := win0_3.stage (cfg0.slots t 3)
abbrev hs_3 (t : Fin cfg0.N) : (ms_3 t).IsWhole := hstage0_3 ((cfg0.slots t 3).cast nbuf0_3)
/-- The scratch that carries the running total: a whole scoped buffer of the call's own. -/
abbrev scM : Memref sig .tc .vmem S1024x128 .f32 := Memref.whole cc0_scratch0
/-- The scratch as a view: what it holds is stated through it. -/
abbrev VS : View sig .tc .vmem S1024x128 .f32 := scM.view
/-- One staging buffer of the result window, through which its contents are stated (the choice does not matter). -/
abbrev VO : View sig .tc .vmem S1024x128 .bf16 := (Memref.whole cc0_stg3_0 : Memref sig .tc .vmem S1024x128 .bf16).view

/-- The scoped buffers of the other call, which this call never touches, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the call may use beside its windows, taken apart: its scratch at some contents, the other call's scoped buffers, and
    the generator register at some state. -/
theorem PhiA_split (c : Dev nD) :
    (Pipeline.ΦA spec0 c : sProp 𝕄)
      ⊢ iprop(iprop((∃ d, owns (c : Thread nD τ) scM fullShare d) ∗ others c) ∗ (∃ r, prngReg c r)) := by
  unfold Pipeline.ΦA others; rw [scopedRest0_eq]; simp only [scM, owns_whole]
  iintro ⟨⟨HS, A1, A2, A3, A4, A5, A6, A7⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg
/-- and put together again. -/
theorem PhiA_join (c : Dev nD) :
    (iprop(iprop((∃ d, owns (c : Thread nD τ) scM fullShare d) ∗ others c) ∗ (∃ r, prngReg c r)) : sProp 𝕄)
      ⊢ Pipeline.ΦA spec0 c := by
  unfold Pipeline.ΦA others; rw [scopedRest0_eq]; simp only [scM, owns_whole]
  iintro ⟨⟨HS, A1, A2, A3, A4, A5, A6, A7⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg

end Cert.Kernel.R0

end
-- ==== Proof.KbR0RunFirst.lean ====
/-
  The body at a row block's first column block: it zeroes the scratch, then adds the block's product to it.
-/
import proofs.«119406_j84456236909326_2_alg».proof.Proof.KbR0Base
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at anything, the body runs to the continuation holding the inputs as they were and each buffer it stored into with its
    pieces written. -/
noncomputable def runFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i)
    (x0 : Vec F S1024x2048 .f32) (x1 : Vec F S16384x128 .f32) (x2 : Vec F S128x128 .f32) :
    Σ' (L3 : List (View.Piece (Elt F) S1024x128 .bf16)), { LS : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨[], ?_, fun xi3 E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R0

end
-- ==== Proof.KbR0RunMid.lean ====
/-
  The body at a column block that is neither the first nor the last of its row block: it adds the block's product to the
  running total in the scratch.
-/
import proofs.«119406_j84456236909326_2_alg».proof.Proof.KbR0Base
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at what the point before left, the body runs to the continuation holding the inputs as they were and each buffer it stored into with its
    pieces written. -/
noncomputable def runMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i)
    (x0 : Vec F S1024x2048 .f32) (x1 : Vec F S16384x128 .f32) (x2 : Vec F S128x128 .f32) (xs : Vec F S1024x128 .f32) :
    Σ' (L3 : List (View.Piece (Elt F) S1024x128 .bf16)), { LS : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨[], ?_, fun xi3 E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R0

end
-- ==== Proof.KbR0RunLast.lean ====
/-
  The body at a row block's last column block: it adds the last product to the running total, multiplies the total by the
  weight matrix and stores the row block of the result.
-/
import proofs.«119406_j84456236909326_2_alg».proof.Proof.KbR0Base
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at anything, the scratch
    at what the point before left, the body runs to the continuation holding the inputs as they were and each buffer it stored into with its
    pieces written. -/
noncomputable def runLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i)
    (x0 : Vec F S1024x2048 .f32) (x1 : Vec F S16384x128 .f32) (x2 : Vec F S128x128 .f32) (xs : Vec F S1024x128 .f32) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨?_, ?_, fun E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.R0

end
-- ==== Proof.KbR0Frame.lean ====
/-
  The first aggregation call as a pipeline: what the scratch and the result window hold after every point, and that the body
  keeps this account.

  After the body at point t the scratch holds the running total of the row block up to column block t % 8: at a first column
  block what the zeroing and one addition leave, afterwards what one more addition leaves over the point before. The result
  window's staging buffer holds the row block of the result after a last column block and is not consulted elsewhere. The
  invariant between points keeps the scratch at exactly these contents, the other call's buffers and the generator register
  untouched; the call owes nothing. From this the body obligation of the pipeline follows at every point, by the case the
  point is in.
-/
import proofs.«119406_j84456236909326_2_alg».proof.Proof.KbR0RunFirst
import proofs.«119406_j84456236909326_2_alg».proof.Proof.KbR0RunMid
import proofs.«119406_j84456236909326_2_alg».proof.Proof.KbR0RunLast

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves -/

/-- The stores of a first column block cover the scratch. -/
theorem scoverFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i) (x0 : Vec F S1024x2048 .f32) (x1 : Vec F S16384x128 .f32) (x2 : Vec F S128x128 .f32) (y : S1024x128.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x128.size (by sl_kernel_rfl) y
/-- What a first column block leaves in the scratch. -/
def sFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i) (x0 : Vec F S1024x2048 .f32) (x1 : Vec F S16384x128 .f32) (x2 : Vec F S128x128 .f32) : Vec F S1024x128 .f32 :=
  VS.read (Elt F) (VS.writes (Elt F) VS.junk (runFirst c i arg2 harg2 arg3 harg3 arg4 harg4 arg5 harg5 arg6 harg6 hc0 hc1 x0 x1 x2).2.1)

/-- The store of a middle column block covers the scratch. -/
theorem scoverMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .f32) (x2 : Vec F S128x128 .f32) (xs : Vec F S1024x128 .f32) (y : S1024x128.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x128.size (by sl_kernel_rfl) y
/-- What a middle column block leaves in the scratch, over what the point before left. -/
def sMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .f32) (x2 : Vec F S128x128 .f32) (xs : Vec F S1024x128 .f32) : Vec F S1024x128 .f32 :=
  VS.read (Elt F) (VS.writes (Elt F) VS.junk (runMid c i arg2 harg2 arg3 harg3 arg4 harg4 arg5 harg5 arg6 harg6 hc0 hc1 x0 x1 x2 xs).2.1)

/-- The store of a last column block covers the scratch, -/
theorem scoverLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x128.size (by sl_kernel_rfl) y
/-- and its store into the result window covers the window's block. -/
theorem coverLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x128.size (by sl_kernel_rfl) y
/-- What a last column block leaves in the scratch, -/
def sLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) : Vec F S1024x128 .f32 :=
  VS.read (Elt F) (VS.writes (Elt F) VS.junk (runLast c i arg2 harg2 arg3 harg3 arg4 harg4 arg5 harg5 arg6 harg6 hc0 hc1 x0 x1 x2 xs).2.1)
/-- and in the result window's staging buffer. -/
def oLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) : Vec F S1024x128 .bf16 :=
  VO.read (Elt F) (VO.writes (Elt F) VO.junk (runLast c i arg2 harg2 arg3 harg3 arg4 harg4 arg5 harg5 arg6 harg6 hc0 hc1 x0 x1 x2 xs).1)
/-- Where the body stores nothing into the result window its contents are not consulted: a placeholder. -/
def oIdle : Vec F S1024x128 .bf16 := VO.read (Elt F) (VO.writes (Elt F) VO.junk [])

section
variable (V : (c : Dev nD) → (b : Ref sig .tc) → Buf (Elt F) ((c : Thread nD τ).loc b))

/-! ## The accumulation, point by point -/

/-- What the result window's staging buffer and the scratch hold after the body at point n: the case the point is in, run at
    the point's memrefs and blocks, over the scratch as the point before left it. -/
def outsAt (c : Dev nD) : (n : ℕ) → n < cfg0.N → Vec F S1024x128 .bf16 × Vec F S1024x128 .f32
  | 0, hn => (oIdle, sFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      (oIdle, sFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h7 : (n + 1) % 8 = 7 then
        (oLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2,
         sLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2)
      else
        (oIdle, sMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h7 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a first column block. -/
theorem outsAt_first (c : Dev nD) (t : Fin cfg0.N) (h0 : t.val % 8 = 0) (h7 : ¬t.val % 8 = 7) :
    outsAt V c t.val t.isLt = (oIdle, sFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)) := by
  obtain ⟨n, hn⟩ := t
  cases n with
  | zero => exact rfl
  | succ n => exact (dif_pos h0).trans rfl

/-- At a middle column block, over what the point before left. -/
theorem outsAt_mid (c : Dev nD) (t : Fin cfg0.N) (h0 : ¬t.val % 8 = 0) (h7 : ¬t.val % 8 = 7) :
    outsAt V c t.val t.isLt = (oIdle, sMid c (grid0.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

/-- At a last column block, over what the point before left. -/
theorem outsAt_last (c : Dev nD) (t : Fin cfg0.N) (h0 : ¬t.val % 8 = 0) (h7 : t.val % 8 = 7) :
    outsAt V c t.val t.isLt = (oLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2,
      sLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant between points -/

/-- Before the first point the call's scratch is at anything; after point n it holds what that point left. The other call's
    scoped buffers and the generator register ride along untouched. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the call finds them; after the body at a point each input's buffer at its block and the result window's at
    the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) :=
  ⟨by unfold Dat.leavesExact; rw [live_0 t, after_0], by unfold Dat.leavesExact; rw [live_1 t, after_1],
   by unfold Dat.leavesExact; rw [live_2 t, after_2]⟩

set_option maxHeartbeats 4800000 in
/-- The body at any point: the inputs' buffers hold their blocks; the closed forms say which case the point is in; the
    invariant hands the body the scratch at what the point before left (at anything at the very first point, and at a later
    first column block its old contents are simply forgotten) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg0.N = 128 from N_0)
  by_cases h0 : t.val % 8 = 0
  · have h7 : ¬t.val % 8 = 7 := by omega
    rw [Dat.leavesExact_idle (dat V c) 3 t (idle_3 t (fun h => h7 ((hcondLast t).mp h))) (noFlush_3 t (fun h => h7 ((hcondLast t).mp h)))]
    rw [outsAt_first V c t h0 h7]
    unfold sFirst; (try dsimp only)
    by_cases hz : t.val = 0
    · rw [PhiS_castSucc V c t, PhiS_zero V c _ _ hz]
      refine (sep_mono (PhiA_split c) .rfl).trans ?_
      iintro ⟨⟨⟨HS, Hoth⟩, Hg⟩, Ho, ⟨%d0, H0⟩, ⟨%d1, H1⟩, ⟨%d2, H2⟩, ⟨%d3, H3⟩⟩
      iapply ((runFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat V c).leavesExact 3 t = owns (c : Thread nD τ) (ms_3 t) fullShare ((dat V c).after 3 t) from by
        unfold Dat.leavesExact; rw [live_3 t ((hcondLast t).mpr h7)], after_3]
      rw [outsAt_last V c t h0 h7]
      unfold oLast sLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_3 t (fun h => h7 ((hcondLast t).mp h))) (noFlush_3 t (fun h => h7 ((hcondLast t).mp h)))]
      rw [outsAt_mid V c t h0 h7]
      unfold sMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W0, bigSep_W0]
  exact sound_body V c t

/-- What the call is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega)]
  refine .trans ?_ (PhiA_join c)
  iintro ⟨⟨HS, Hoth⟩, Hg⟩
  isplitl [HS Hoth]
  · isplitl [HS]
    · iexists _; iexact HS
    iexact Hoth
  iexact Hg

end

end Cert.Kernel.R0

end
-- ==== Proof.KbR1Base.lean ====
/-
  The second aggregation call, point by point: what its body finds and what the three kinds of point are.

  The call walks a 16 × 8 grid: point t is row block t / 8 (1024 rows of A) and column block k = t % 8 (2048 columns of A).
  A 1024 × 128 scratch carries the running total of a row block across its eight column blocks. At k = 0 the body zeroes
  the scratch and adds the first block's product; at 0 < k < 7 it adds the block's product; at k = 7 it adds the last
  product, multiplies the total by the weight and stores the row block's result. Stated here: each window's block as read
  off the array the call finds, that an input's staging buffer holds that block at every point, the two branch conditions
  in closed form over the grid, where the result window is left untouched and not written back, and the buffers the body
  may use beside its windows.
-/
import proofs.«119406_j84456236909326_2_alg».proof.Proof.Gen.Kernel.Launch
import proofs.«119406_j84456236909326_2_alg».proof.Proof.Gen.Kernel.Skeleton
import proofs.«119406_j84456236909326_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the core's buffer contents when the call is entered: a parameter, fixed by the run
variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the A window holds the point's block of A at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the hidden-layer window holds the whole feature matrix at every point: it is fetched once and its block
    index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight window holds the whole weight matrix at every point, likewise. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions -/

/-- "This is the row block's first column block": the body's first test, from the grid coordinates. -/
abbrev condFirst (i : grid1.Coords) : Prop := (Scalar.cmpi .ne (Scalar.extui (Scalar.cmpi .eq (BitVec.ofNat 32 (i 1).val) 0#32)) 0#32) = 1#1
/-- It holds exactly at the points with k = 0. -/
theorem hcondFirst : ∀ t : Fin cfg1.N, condFirst (grid1.coords t) ↔ t.val % 8 = 0 :=
  (by decide +kernel : ∀ t : Fin grid1.N, condFirst (grid1.coords t) ↔ t.val % 8 = 0)

/-- "This is the row block's last column block": the body's second test. -/
abbrev condLast (i : grid1.Coords) : Prop := k1_cond2 i = 1#1
/-- It holds exactly at the points with k = 7. -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last column block the body stores nothing into the result window, -/
theorem idle_3 : ∀ t : Fin cfg1.N, ¬condLast (grid1.coords t) → cfg1.idle 3 (grid1.coords t) = true := by decide +kernel
/-- and the pipeline does not write the window back there; -/
theorem noFlush_3 : ∀ t : Fin cfg1.N, ¬condLast (grid1.coords t) → (cfg1.win 3).flush t = false := by decide +kernel
/-- at the last column block the body stores the whole block. -/
theorem live_3 : ∀ t : Fin cfg1.N, condLast (grid1.coords t) → cfg1.idle 3 (grid1.coords t) = false := by decide +kernel

/-! ## The memrefs the body is called with -/

abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16384x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
/-- The scratch that carries the running total: a whole scoped buffer of the call's own. -/
abbrev scM : Memref sig .tc .vmem S1024x128 .f32 := Memref.whole cc1_scratch0
/-- The scratch as a view: what it holds is stated through it. -/
abbrev VS : View sig .tc .vmem S1024x128 .f32 := scM.view
/-- One staging buffer of the result window, through which its contents are stated (the choice does not matter). -/
abbrev VO : View sig .tc .vmem S1024x128 .f32 := (Memref.whole cc1_stg3_0 : Memref sig .tc .vmem S1024x128 .f32).view

/-- The scoped buffers of the other call, which this call never touches, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the call may use beside its windows, taken apart: its scratch at some contents, the other call's scoped buffers, and
    the generator register at some state. -/
theorem PhiA_split (c : Dev nD) :
    (Pipeline.ΦA spec1 c : sProp 𝕄)
      ⊢ iprop(iprop((∃ d, owns (c : Thread nD τ) scM fullShare d) ∗ others c) ∗ (∃ r, prngReg c r)) := by
  unfold Pipeline.ΦA others; rw [scopedRest1_eq]; simp only [scM, owns_whole]
  iintro ⟨⟨A1, A2, A3, A4, A5, A6, A7, HS⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg
/-- and put together again. -/
theorem PhiA_join (c : Dev nD) :
    (iprop(iprop((∃ d, owns (c : Thread nD τ) scM fullShare d) ∗ others c) ∗ (∃ r, prngReg c r)) : sProp 𝕄)
      ⊢ Pipeline.ΦA spec1 c := by
  unfold Pipeline.ΦA others; rw [scopedRest1_eq]; simp only [scM, owns_whole]
  iintro ⟨⟨HS, A1, A2, A3, A4, A5, A6, A7⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

end Cert.Kernel.R1

end
-- ==== Proof.KbR1RunFirst.lean ====
/-
  The body at a row block's first column block: it zeroes the scratch, then adds the block's product to it.
-/
import proofs.«119406_j84456236909326_2_alg».proof.Proof.KbR1Base
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at anything, the body runs to the continuation holding the inputs as they were and each buffer it stored into with its
    pieces written. -/
noncomputable def runFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i)
    (x0 : Vec F S1024x2048 .f32) (x1 : Vec F S16384x128 .bf16) (x2 : Vec F S128x128 .f32) :
    Σ' (L3 : List (View.Piece (Elt F) S1024x128 .f32)), { LS : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨[], ?_, fun xi3 E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R1

end
-- ==== Proof.KbR1RunMid.lean ====
/-
  The body at a column block that is neither the first nor the last of its row block: it adds the block's product to the
  running total in the scratch.
-/
import proofs.«119406_j84456236909326_2_alg».proof.Proof.KbR1Base
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at what the point before left, the body runs to the continuation holding the inputs as they were and each buffer it stored into with its
    pieces written. -/
noncomputable def runMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i)
    (x0 : Vec F S1024x2048 .f32) (x1 : Vec F S16384x128 .bf16) (x2 : Vec F S128x128 .f32) (xs : Vec F S1024x128 .f32) :
    Σ' (L3 : List (View.Piece (Elt F) S1024x128 .f32)), { LS : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨[], ?_, fun xi3 E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R1

end
-- ==== Proof.KbR1RunLast.lean ====
/-
  The body at a row block's last column block: it adds the last product to the running total, multiplies the total by the
  weight matrix and stores the row block of the result.
-/
import proofs.«119406_j84456236909326_2_alg».proof.Proof.KbR1Base
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at anything, the scratch
    at what the point before left, the body runs to the continuation holding the inputs as they were and each buffer it stored into with its
    pieces written. -/
noncomputable def runLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i)
    (x0 : Vec F S1024x2048 .f32) (x1 : Vec F S16384x128 .bf16) (x2 : Vec F S128x128 .f32) (xs : Vec F S1024x128 .f32) :
    Σ' (L3 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨?_, ?_, fun E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.R1

end
-- ==== Proof.KbR1Frame.lean ====
/-
  The second aggregation call as a pipeline: what the scratch and the result window hold after every point, and that the body
  keeps this account.

  After the body at point t the scratch holds the running total of the row block up to column block t % 8: at a first column
  block what the zeroing and one addition leave, afterwards what one more addition leaves over the point before. The result
  window's staging buffer holds the row block of the result after a last column block and is not consulted elsewhere. The
  invariant between points keeps the scratch at exactly these contents, the other call's buffers and the generator register
  untouched; the call owes nothing. From this the body obligation of the pipeline follows at every point, by the case the
  point is in.
-/
import proofs.«119406_j84456236909326_2_alg».proof.Proof.KbR1RunFirst
import proofs.«119406_j84456236909326_2_alg».proof.Proof.KbR1RunMid
import proofs.«119406_j84456236909326_2_alg».proof.Proof.KbR1RunLast

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves -/

/-- The stores of a first column block cover the scratch. -/
theorem scoverFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i) (x0 : Vec F S1024x2048 .f32) (x1 : Vec F S16384x128 .bf16) (x2 : Vec F S128x128 .f32) (y : S1024x128.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x128.size (by sl_kernel_rfl) y
/-- What a first column block leaves in the scratch. -/
def sFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i) (x0 : Vec F S1024x2048 .f32) (x1 : Vec F S16384x128 .bf16) (x2 : Vec F S128x128 .f32) : Vec F S1024x128 .f32 :=
  VS.read (Elt F) (VS.writes (Elt F) VS.junk (runFirst c i arg2 harg2 arg3 harg3 arg4 harg4 arg5 harg5 arg6 harg6 hc0 hc1 x0 x1 x2).2.1)

/-- The store of a middle column block covers the scratch. -/
theorem scoverMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .bf16) (x2 : Vec F S128x128 .f32) (xs : Vec F S1024x128 .f32) (y : S1024x128.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x128.size (by sl_kernel_rfl) y
/-- What a middle column block leaves in the scratch, over what the point before left. -/
def sMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .bf16) (x2 : Vec F S128x128 .f32) (xs : Vec F S1024x128 .f32) : Vec F S1024x128 .f32 :=
  VS.read (Elt F) (VS.writes (Elt F) VS.junk (runMid c i arg2 harg2 arg3 harg3 arg4 harg4 arg5 harg5 arg6 harg6 hc0 hc1 x0 x1 x2 xs).2.1)

/-- The store of a last column block covers the scratch, -/
theorem scoverLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x128.size (by sl_kernel_rfl) y
/-- and its store into the result window covers the window's block. -/
theorem coverLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x128.size (by sl_kernel_rfl) y
/-- What a last column block leaves in the scratch, -/
def sLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) : Vec F S1024x128 .f32 :=
  VS.read (Elt F) (VS.writes (Elt F) VS.junk (runLast c i arg2 harg2 arg3 harg3 arg4 harg4 arg5 harg5 arg6 harg6 hc0 hc1 x0 x1 x2 xs).2.1)
/-- and in the result window's staging buffer. -/
def oLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) : Vec F S1024x128 .f32 :=
  VO.read (Elt F) (VO.writes (Elt F) VO.junk (runLast c i arg2 harg2 arg3 harg3 arg4 harg4 arg5 harg5 arg6 harg6 hc0 hc1 x0 x1 x2 xs).1)
/-- Where the body stores nothing into the result window its contents are not consulted: a placeholder. -/
def oIdle : Vec F S1024x128 .f32 := VO.read (Elt F) (VO.writes (Elt F) VO.junk [])

section
variable (V : (c : Dev nD) → (b : Ref sig .tc) → Buf (Elt F) ((c : Thread nD τ).loc b))

/-! ## The accumulation, point by point -/

/-- What the result window's staging buffer and the scratch hold after the body at point n: the case the point is in, run at
    the point's memrefs and blocks, over the scratch as the point before left it. -/
def outsAt (c : Dev nD) : (n : ℕ) → n < cfg1.N → Vec F S1024x128 .f32 × Vec F S1024x128 .f32
  | 0, hn => (oIdle, sFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      (oIdle, sFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h7 : (n + 1) % 8 = 7 then
        (oLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2,
         sLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2)
      else
        (oIdle, sMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h7 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a first column block. -/
theorem outsAt_first (c : Dev nD) (t : Fin cfg1.N) (h0 : t.val % 8 = 0) (h7 : ¬t.val % 8 = 7) :
    outsAt V c t.val t.isLt = (oIdle, sFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)) := by
  obtain ⟨n, hn⟩ := t
  cases n with
  | zero => exact rfl
  | succ n => exact (dif_pos h0).trans rfl

/-- At a middle column block, over what the point before left. -/
theorem outsAt_mid (c : Dev nD) (t : Fin cfg1.N) (h0 : ¬t.val % 8 = 0) (h7 : ¬t.val % 8 = 7) :
    outsAt V c t.val t.isLt = (oIdle, sMid c (grid1.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

/-- At a last column block, over what the point before left. -/
theorem outsAt_last (c : Dev nD) (t : Fin cfg1.N) (h0 : ¬t.val % 8 = 0) (h7 : t.val % 8 = 7) :
    outsAt V c t.val t.isLt = (oLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2,
      sLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant between points -/

/-- Before the first point the call's scratch is at anything; after point n it holds what that point left. The other call's
    scoped buffers and the generator register ride along untouched. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the call finds them; after the body at a point each input's buffer at its block and the result window's at
    the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) :=
  ⟨by unfold Dat.leavesExact; rw [live_0 t, after_0], by unfold Dat.leavesExact; rw [live_1 t, after_1],
   by unfold Dat.leavesExact; rw [live_2 t, after_2]⟩

set_option maxHeartbeats 4800000 in
/-- The body at any point: the inputs' buffers hold their blocks; the closed forms say which case the point is in; the
    invariant hands the body the scratch at what the point before left (at anything at the very first point, and at a later
    first column block its old contents are simply forgotten) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 8 = 0
  · have h7 : ¬t.val % 8 = 7 := by omega
    rw [Dat.leavesExact_idle (dat V c) 3 t (idle_3 t (fun h => h7 ((hcondLast t).mp h))) (noFlush_3 t (fun h => h7 ((hcondLast t).mp h)))]
    rw [outsAt_first V c t h0 h7]
    unfold sFirst; (try dsimp only)
    by_cases hz : t.val = 0
    · rw [PhiS_castSucc V c t, PhiS_zero V c _ _ hz]
      refine (sep_mono (PhiA_split c) .rfl).trans ?_
      iintro ⟨⟨⟨HS, Hoth⟩, Hg⟩, Ho, ⟨%d0, H0⟩, ⟨%d1, H1⟩, ⟨%d2, H2⟩, ⟨%d3, H3⟩⟩
      iapply ((runFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat V c).leavesExact 3 t = owns (c : Thread nD τ) (ms_3 t) fullShare ((dat V c).after 3 t) from by
        unfold Dat.leavesExact; rw [live_3 t ((hcondLast t).mpr h7)], after_3]
      rw [outsAt_last V c t h0 h7]
      unfold oLast sLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_3 t (fun h => h7 ((hcondLast t).mp h))) (noFlush_3 t (fun h => h7 ((hcondLast t).mp h)))]
      rw [outsAt_mid V c t h0 h7]
      unfold sMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the call is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA_join c)
  iintro ⟨⟨HS, Hoth⟩, Hg⟩
  isplitl [HS Hoth]
  · isplitl [HS]
    · iexists _; iexact HS
    iexact Hoth
  iexact Hg

end

end Cert.Kernel.R1

end
-- ==== Proof.KbWhole.lean ====
/-
  The whole program: two host transposes, then the two aggregation calls, the second reading the first one's result.

  The contents of the core's unscoped buffers are followed through the program: as launched; with the two transposed weights
  written; with the first call's result array at what its write-backs leave; with the second call's result array likewise.
  Each call is a segment entered with the buffers at the contents before it; its pipeline's proof data are those of its
  frame module at these entry contents. No item writes an argument array, so every argument ends as launched.
-/
import proofs.«119406_j84456236909326_2_alg».proof.Proof.KbR0Frame
import proofs.«119406_j84456236909326_2_alg».proof.Proof.KbR1Frame
import proofs.«119406_j84456236909326_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents each call is entered with -/

/-- What the first call finds, at the core's references: the launch contents with the two transposed weights written. -/
abbrev Ve0 (c : Dev nD) (b : Ref sig .tc) : Buf (Elt F) ((c : Thread nD τ).loc b) := V1 m c b

/-- What the first call leaves in its result array. -/
def o2 (c : Dev nD) : Buf (Elt F) ((c : Thread nD τ).loc main_v2) := (R0.dat (Ve0 m) c).arrAt 3 cfg0.N

/-- The regions' results with only the first call's filled in (the second call's entry contents are stated over it). -/
def outs0 : Outs (F := F) := fun _ r c => if h : r = main_v2 then h ▸ o2 m c else m ((c : Thread nD τ).loc r)
theorem outs0_v2 (J : ℕ) (c : Dev nD) : outs0 m J main_v2 c = o2 m c := dif_pos rfl

/-- What the second call finds: the first call's entry contents with its result array written. -/
abbrev Ve1 (c : Dev nD) (b : Ref sig .tc) : Buf (Elt F) ((c : Thread nD τ).loc b) := V2 m (outs0 m) c b

/-- What the second call leaves in its result array. -/
def o3 (c : Dev nD) : Buf (Elt F) ((c : Thread nD τ).loc main_v3) := (R1.dat (Ve1 m) c).arrAt 3 cfg1.N

/-- What the two calls leave in their result arrays. -/
def outs : Outs (F := F) := fun J r c => if h : r = main_v3 then h ▸ o3 m c else outs0 m J r c
theorem outs_v2 (J : ℕ) (c : Dev nD) : outs m J main_v2 c = o2 m c :=
  (dif_neg (by decide)).trans (outs0_v2 m J c)
theorem outs_v3 (J : ℕ) (c : Dev nD) : outs m J main_v3 c = o3 m c := dif_pos rfl

/-- The contents after the first call do not depend on the second call's result. -/
theorem V2_outs (c : Dev nD) : V2 m (outs m) c = V2 m (outs0 m) c := by
  show Function.update (V1 m c) main_v2 (outs m 2 main_v2 c) = Function.update (V1 m c) main_v2 (outs0 m 2 main_v2 c)
  rw [outs_v2, outs0_v2]

/-! ## The proof data of both pipelines -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 m) c

abbrev 𝒱 : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-! ## The first call's arrays at its exit -/

theorem hF0 (c : Dev nD) (w : Fin cfg0.W) : (pdats m 0 c).arrAt w cfg0.N = V2 m (outs m) c (Pipeline.arrRef spec0 w) :=
  match w with
  | ⟨0, _⟩ => (((R0.dat (Ve0 m) c).arrAt_in 0 rfl _).trans (R0.A_eq (Ve0 m) c 0)).trans (V2_of m (outs m) c main_arg0 (by decide)).symm
  | ⟨1, _⟩ => (((R0.dat (Ve0 m) c).arrAt_in 1 rfl _).trans (R0.A_eq (Ve0 m) c 1)).trans (V2_of m (outs m) c main_arg1 (by decide)).symm
  | ⟨2, _⟩ => (((R0.dat (Ve0 m) c).arrAt_in 2 rfl _).trans (R0.A_eq (Ve0 m) c 2)).trans (V2_of m (outs m) c main_v0 (by decide)).symm
  | ⟨3, _⟩ => by
    show o2 m c = Function.update (V1 m c) main_v2 (outs m 2 main_v2 c) main_v2
    rw [Function.update_self, outs_v2]
theorem hrest0 (c : Dev nD) : ∀ b, b ∉ Finset.univ.image (Pipeline.arrRef spec0) → V2 m (outs m) c b = Ve0 m c b :=
  fun b hb => V2_of m (outs m) c b (by
    intro hmem
    have : b = main_v2 := by simpa using hmem
    exact hb (Finset.mem_image.mpr ⟨3, Finset.mem_univ _, this.symm ▸ rfl⟩))

/-! ## The second call's arrays at its exit -/

theorem hF1 (c : Dev nD) (w : Fin cfg1.W) : (pdats m 1 c).arrAt w cfg1.N = V3 m (outs m) c (Pipeline.arrRef spec1 w) :=
  match w with
  | ⟨0, _⟩ => (((R1.dat (Ve1 m) c).arrAt_in 0 rfl _).trans (R1.A_eq (Ve1 m) c 0)).trans
      ((congrFun (V2_outs m c) _).symm.trans (V3_of m (outs m) c main_arg0 (by decide)).symm)
  | ⟨1, _⟩ => (((R1.dat (Ve1 m) c).arrAt_in 1 rfl _).trans (R1.A_eq (Ve1 m) c 1)).trans
      ((congrFun (V2_outs m c) _).symm.trans (V3_of m (outs m) c main_v2 (by decide)).symm)
  | ⟨2, _⟩ => (((R1.dat (Ve1 m) c).arrAt_in 2 rfl _).trans (R1.A_eq (Ve1 m) c 2)).trans
      ((congrFun (V2_outs m c) _).symm.trans (V3_of m (outs m) c main_v1 (by decide)).symm)
  | ⟨3, _⟩ => by
    show o3 m c = Function.update (V2 m (outs m) c) main_v3 (outs m 3 main_v3 c) main_v3
    rw [Function.update_self, outs_v3]
theorem hrest1 (c : Dev nD) : ∀ b, b ∉ Finset.univ.image (Pipeline.arrRef spec1) → V3 m (outs m) c b = Ve1 m c b :=
  fun b hb => (V3_of m (outs m) c b (by
    intro hmem
    have : b = main_v3 := by simpa using hmem
    exact hb (Finset.mem_image.mpr ⟨3, Finset.mem_univ _, this.symm ▸ rfl⟩))).trans (congrFun (V2_outs m c) _)

/-! ## The calls as segments -/

set_option backward.isDefEq.respectTransparency.types false in
/-- Call 0 as a segment of the program: entered with every unscoped buffer at the contents before it, left with its result
    array at what its write-backs leave and every other buffer as entered. Its arrays are split out of the unscoped buffers
    and put back; the generator register passes through the invariant; nothing is owed; the call has no semaphore of its own. -/
def reg0 : Pipeline.RegionSeg (pcfgs (F := F)) adm (pdats m) () defs₀ 𝒱 L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from R0.hin (Ve0 m) c)
    unfold Pipeline.ΦA
    iintro ⟨Hp, -, Hr⟩
    isplitl [Hr]; · iexact Hr
    iexact Hp
  hout c := by
    refine BIBase.Entails.trans (show (pdats m 0 c).Φ (Fin.last _) ⊢ Pipeline.ΦA spec0 c from R0.hout (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with its result
    array at what its write-backs leave and every other buffer as entered. Its arrays are split out of the unscoped buffers
    and put back; the generator register passes through the invariant; nothing is owed; the call has no semaphore of its own. -/
def reg1 : Pipeline.RegionSeg (pcfgs (F := F)) adm (pdats m) () defs₀ 𝒱 L lv 1 where
  win := launch1.win.to₀
  block_pos := launch1.block_pos
  stage_whole := launch1.stage_whole
  K := PEmpty
  osem k := k.elim
  ho := Pipeline.OwnSemFacts.none _
  hbody c := (R1.body_obligation (Ve1 m) c).loose
  hwaits := Pipeline.hwaits_of_owed_zero _ _ _ _ L lv 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from R1.hin (Ve1 m) c)
    unfold Pipeline.ΦA
    iintro ⟨Hp, -, Hr⟩
    isplitl [Hr]; · iexact Hr
    iexact Hp
  hout c := by
    refine BIBase.Entails.trans (show (pdats m 1 c).Φ (Fin.last _) ⊢ Pipeline.ΦA spec1 c from R1.hout (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program terminates, nothing faults, and every
    argument array ends as launched: the conditional frame of the program's items at the two calls' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱 L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.Kernel.Whole

end
-- ==== Proof.KiR0Base.lean ====
/-
  The first aggregation call, point by point: what its body finds and what the three kinds of point are.

  The call walks a 16 × 8 grid: point t is row block t / 8 (1024 rows of A) and column block k = t % 8 (2048 columns of A).
  A 1024 × 128 scratch carries the running total of a row block across its eight column blocks. At k = 0 the body zeroes
  the scratch and adds the first block's product; at 0 < k < 7 it adds the block's product; at k = 7 it adds the last
  product, multiplies the total by the weight and stores the row block's result. Stated here: each window's block as read
  off the array the call finds, that an input's staging buffer holds that block at every point, the two branch conditions
  in closed form over the grid, where the result window is left untouched and not written back, and the buffers the body
  may use beside its windows.
-/
import proofs.«119406_j84456236909326_2_alg».proof.Proof.Gen.KernelIdeal.Launch
import proofs.«119406_j84456236909326_2_alg».proof.Proof.Gen.KernelIdeal.Skeleton
import proofs.«119406_j84456236909326_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the core's buffer contents when the call is entered: a parameter, fixed by the run
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the A window holds the point's block of A at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the feature window holds the whole feature matrix at every point: it is fetched once and its block
    index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight window holds the whole weight matrix at every point, likewise. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions -/

/-- "This is the row block's first column block": the body's first test, from the grid coordinates. -/
abbrev condFirst (i : grid0.Coords) : Prop := (Scalar.cmpi .ne (Scalar.extui (Scalar.cmpi .eq (BitVec.ofNat 32 (i 1).val) 0#32)) 0#32) = 1#1
/-- It holds exactly at the points with k = 0. -/
theorem hcondFirst : ∀ t : Fin cfg0.N, condFirst (grid0.coords t) ↔ t.val % 8 = 0 :=
  (by decide +kernel : ∀ t : Fin grid0.N, condFirst (grid0.coords t) ↔ t.val % 8 = 0)

/-- "This is the row block's last column block": the body's second test. -/
abbrev condLast (i : grid0.Coords) : Prop := k0_cond2 i = 1#1
/-- It holds exactly at the points with k = 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last column block the body stores nothing into the result window, -/
theorem idle_3 : ∀ t : Fin cfg0.N, ¬condLast (grid0.coords t) → cfg0.idle 3 (grid0.coords t) = true := by decide +kernel
/-- and the pipeline does not write the window back there; -/
theorem noFlush_3 : ∀ t : Fin cfg0.N, ¬condLast (grid0.coords t) → (cfg0.win 3).flush t = false := by decide +kernel
/-- at the last column block the body stores the whole block. -/
theorem live_3 : ∀ t : Fin cfg0.N, condLast (grid0.coords t) → cfg0.idle 3 (grid0.coords t) = false := by decide +kernel

/-! ## The memrefs the body is called with -/

abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S16384x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .bf16 := win0_3.stage (cfg0.slots t 3)
abbrev hs_3 (t : Fin cfg0.N) : (ms_3 t).IsWhole := hstage0_3 ((cfg0.slots t 3).cast nbuf0_3)
/-- The scratch that carries the running total: a whole scoped buffer of the call's own. -/
abbrev scM : Memref sig .tc .vmem S1024x128 .f32 := Memref.whole cc0_scratch0
/-- The scratch as a view: what it holds is stated through it. -/
abbrev VS : View sig .tc .vmem S1024x128 .f32 := scM.view
/-- One staging buffer of the result window, through which its contents are stated (the choice does not matter). -/
abbrev VO : View sig .tc .vmem S1024x128 .bf16 := (Memref.whole cc0_stg3_0 : Memref sig .tc .vmem S1024x128 .bf16).view

/-- The scoped buffers of the other call, which this call never touches, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the call may use beside its windows, taken apart: its scratch at some contents, the other call's scoped buffers, and
    the generator register at some state. -/
theorem PhiA_split (c : Dev nD) :
    (Pipeline.ΦA spec0 c : sProp 𝕄)
      ⊢ iprop(iprop((∃ d, owns (c : Thread nD τ) scM fullShare d) ∗ others c) ∗ (∃ r, prngReg c r)) := by
  unfold Pipeline.ΦA others; rw [scopedRest0_eq]; simp only [scM, owns_whole]
  iintro ⟨⟨HS, A1, A2, A3, A4, A5, A6, A7⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg
/-- and put together again. -/
theorem PhiA_join (c : Dev nD) :
    (iprop(iprop((∃ d, owns (c : Thread nD τ) scM fullShare d) ∗ others c) ∗ (∃ r, prngReg c r)) : sProp 𝕄)
      ⊢ Pipeline.ΦA spec0 c := by
  unfold Pipeline.ΦA others; rw [scopedRest0_eq]; simp only [scM, owns_whole]
  iintro ⟨⟨HS, A1, A2, A3, A4, A5, A6, A7⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg

end Cert.KernelIdeal.R0

end
-- ==== Proof.KiR0RunFirst.lean ====
/-
  The body at a row block's first column block: it zeroes the scratch, then adds the block's product to it.
-/
import proofs.«119406_j84456236909326_2_alg».proof.Proof.KiR0Base
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at anything, the body runs to the continuation holding the inputs as they were and each buffer it stored into with its
    pieces written. -/
noncomputable def runFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i)
    (x0 : Vec F S1024x2048 .f32) (x1 : Vec F S16384x128 .f32) (x2 : Vec F S128x128 .f32) :
    Σ' (L3 : List (View.Piece (Elt F) S1024x128 .bf16)), { LS : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨[], ?_, fun xi3 E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R0

end
-- ==== Proof.KiR0RunMid.lean ====
/-
  The body at a column block that is neither the first nor the last of its row block: it adds the block's product to the
  running total in the scratch.
-/
import proofs.«119406_j84456236909326_2_alg».proof.Proof.KiR0Base
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at what the point before left, the body runs to the continuation holding the inputs as they were and each buffer it stored into with its
    pieces written. -/
noncomputable def runMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i)
    (x0 : Vec F S1024x2048 .f32) (x1 : Vec F S16384x128 .f32) (x2 : Vec F S128x128 .f32) (xs : Vec F S1024x128 .f32) :
    Σ' (L3 : List (View.Piece (Elt F) S1024x128 .bf16)), { LS : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨[], ?_, fun xi3 E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R0

end
-- ==== Proof.KiR0RunLast.lean ====
/-
  The body at a row block's last column block: it adds the last product to the running total, multiplies the total by the
  weight matrix and stores the row block of the result.
-/
import proofs.«119406_j84456236909326_2_alg».proof.Proof.KiR0Base
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at anything, the scratch
    at what the point before left, the body runs to the continuation holding the inputs as they were and each buffer it stored into with its
    pieces written. -/
noncomputable def runLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i)
    (x0 : Vec F S1024x2048 .f32) (x1 : Vec F S16384x128 .f32) (x2 : Vec F S128x128 .f32) (xs : Vec F S1024x128 .f32) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_linear_kernel i arg2 harg2 arg3 harg3 arg4 harg4 arg5 harg5 arg6 harg6) K } := by
  refine ⟨?_, ?_, fun E K => ?run⟩
  case run =>
    simp only [cc0__agg_linear_kernel_eq_skeleton]; unfold cc0__agg_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.R0

end
-- ==== Proof.KiR0Frame.lean ====
/-
  The first aggregation call as a pipeline: what the scratch and the result window hold after every point, and that the body
  keeps this account.

  After the body at point t the scratch holds the running total of the row block up to column block t % 8: at a first column
  block what the zeroing and one addition leave, afterwards what one more addition leaves over the point before. The result
  window's staging buffer holds the row block of the result after a last column block and is not consulted elsewhere. The
  invariant between points keeps the scratch at exactly these contents, the other call's buffers and the generator register
  untouched; the call owes nothing. From this the body obligation of the pipeline follows at every point, by the case the
  point is in.
-/
import proofs.«119406_j84456236909326_2_alg».proof.Proof.KiR0RunFirst
import proofs.«119406_j84456236909326_2_alg».proof.Proof.KiR0RunMid
import proofs.«119406_j84456236909326_2_alg».proof.Proof.KiR0RunLast

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves -/

/-- The stores of a first column block cover the scratch. -/
theorem scoverFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i) (x0 : Vec F S1024x2048 .f32) (x1 : Vec F S16384x128 .f32) (x2 : Vec F S128x128 .f32) (y : S1024x128.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x128.size (by sl_kernel_rfl) y
/-- What a first column block leaves in the scratch. -/
def sFirst (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : condFirst i) (hc1 : ¬condLast i) (x0 : Vec F S1024x2048 .f32) (x1 : Vec F S16384x128 .f32) (x2 : Vec F S128x128 .f32) : Vec F S1024x128 .f32 :=
  VS.read (Elt F) (VS.writes (Elt F) VS.junk (runFirst c i arg2 harg2 arg3 harg3 arg4 harg4 arg5 harg5 arg6 harg6 hc0 hc1 x0 x1 x2).2.1)

/-- The store of a middle column block covers the scratch. -/
theorem scoverMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .f32) (x2 : Vec F S128x128 .f32) (xs : Vec F S1024x128 .f32) (y : S1024x128.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x128.size (by sl_kernel_rfl) y
/-- What a middle column block leaves in the scratch, over what the point before left. -/
def sMid (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .f32) (x2 : Vec F S128x128 .f32) (xs : Vec F S1024x128 .f32) : Vec F S1024x128 .f32 :=
  VS.read (Elt F) (VS.writes (Elt F) VS.junk (runMid c i arg2 harg2 arg3 harg3 arg4 harg4 arg5 harg5 arg6 harg6 hc0 hc1 x0 x1 x2 xs).2.1)

/-- The store of a last column block covers the scratch, -/
theorem scoverLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x128.size (by sl_kernel_rfl) y
/-- and its store into the result window covers the window's block. -/
theorem coverLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x128.size (by sl_kernel_rfl) y
/-- What a last column block leaves in the scratch, -/
def sLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) : Vec F S1024x128 .f32 :=
  VS.read (Elt F) (VS.writes (Elt F) VS.junk (runLast c i arg2 harg2 arg3 harg3 arg4 harg4 arg5 harg5 arg6 harg6 hc0 hc1 x0 x1 x2 xs).2.1)
/-- and in the result window's staging buffer. -/
def oLast (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬condFirst i) (hc1 : condLast i) (x0 : Vec F S1024x2048 .f32) (x1 : Vec F S16384x128 .f32) (x2 : Vec F S128x128 .f32) (xs : Vec F S1024x128 .f32) : Vec F S1024x128 .bf16 :=
  VO.read (Elt F) (VO.writes (Elt F) VO.junk (runLast c i arg2 harg2 arg3 harg3 arg4 harg4 arg5 harg5 arg6 harg6 hc0 hc1 x0 x1 x2 xs).1)
/-- Where the body stores nothing into the result window its contents are not consulted: a placeholder. -/
def oIdle : Vec F S1024x128 .bf16 := VO.read (Elt F) (VO.writes (Elt F) VO.junk [])

section
variable (V : (c : Dev nD) → (b : Ref sig .tc) → Buf (Elt F) ((c : Thread nD τ).loc b))

/-! ## The accumulation, point by point -/

/-- What the result window's staging buffer and the scratch hold after the body at point n: the case the point is in, run at
    the point's memrefs and blocks, over the scratch as the point before left it. -/
def outsAt (c : Dev nD) : (n : ℕ) → n < cfg0.N → Vec F S1024x128 .bf16 × Vec F S1024x128 .f32
  | 0, hn => (oIdle, sFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      (oIdle, sFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h7 : (n + 1) % 8 = 7 then
        (oLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2,
         sLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2)
      else
        (oIdle, sMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h7 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a first column block. -/
theorem outsAt_first (c : Dev nD) (t : Fin cfg0.N) (h0 : t.val % 8 = 0) (h7 : ¬t.val % 8 = 7) :
    outsAt V c t.val t.isLt = (oIdle, sFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)) := by
  obtain ⟨n, hn⟩ := t
  cases n with
  | zero => exact rfl
  | succ n => exact (dif_pos h0).trans rfl

/-- At a middle column block, over what the point before left. -/
theorem outsAt_mid (c : Dev nD) (t : Fin cfg0.N) (h0 : ¬t.val % 8 = 0) (h7 : ¬t.val % 8 = 7) :
    outsAt V c t.val t.isLt = (oIdle, sMid c (grid0.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

/-- At a last column block, over what the point before left. -/
theorem outsAt_last (c : Dev nD) (t : Fin cfg0.N) (h0 : ¬t.val % 8 = 0) (h7 : t.val % 8 = 7) :
    outsAt V c t.val t.isLt = (oLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2,
      sLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant between points -/

/-- Before the first point the call's scratch is at anything; after point n it holds what that point left. The other call's
    scoped buffers and the generator register ride along untouched. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the call finds them; after the body at a point each input's buffer at its block and the result window's at
    the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) :=
  ⟨by unfold Dat.leavesExact; rw [live_0 t, after_0], by unfold Dat.leavesExact; rw [live_1 t, after_1],
   by unfold Dat.leavesExact; rw [live_2 t, after_2]⟩

set_option maxHeartbeats 4800000 in
/-- The body at any point: the inputs' buffers hold their blocks; the closed forms say which case the point is in; the
    invariant hands the body the scratch at what the point before left (at anything at the very first point, and at a later
    first column block its old contents are simply forgotten) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg0.N = 128 from N_0)
  by_cases h0 : t.val % 8 = 0
  · have h7 : ¬t.val % 8 = 7 := by omega
    rw [Dat.leavesExact_idle (dat V c) 3 t (idle_3 t (fun h => h7 ((hcondLast t).mp h))) (noFlush_3 t (fun h => h7 ((hcondLast t).mp h)))]
    rw [outsAt_first V c t h0 h7]
    unfold sFirst; (try dsimp only)
    by_cases hz : t.val = 0
    · rw [PhiS_castSucc V c t, PhiS_zero V c _ _ hz]
      refine (sep_mono (PhiA_split c) .rfl).trans ?_
      iintro ⟨⟨⟨HS, Hoth⟩, Hg⟩, Ho, ⟨%d0, H0⟩, ⟨%d1, H1⟩, ⟨%d2, H2⟩, ⟨%d3, H3⟩⟩
      iapply ((runFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat V c).leavesExact 3 t = owns (c : Thread nD τ) (ms_3 t) fullShare ((dat V c).after 3 t) from by
        unfold Dat.leavesExact; rw [live_3 t ((hcondLast t).mpr h7)], after_3]
      rw [outsAt_last V c t h0 h7]
      unfold oLast sLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_3 t (fun h => h7 ((hcondLast t).mp h))) (noFlush_3 t (fun h => h7 ((hcondLast t).mp h)))]
      rw [outsAt_mid V c t h0 h7]
      unfold sMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W0, bigSep_W0]
  exact sound_body V c t

/-- What the call is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega)]
  refine .trans ?_ (PhiA_join c)
  iintro ⟨⟨HS, Hoth⟩, Hg⟩
  isplitl [HS Hoth]
  · isplitl [HS]
    · iexists _; iexact HS
    iexact Hoth
  iexact Hg

end

end Cert.KernelIdeal.R0

end
-- ==== Proof.KiR1Base.lean ====
/-
  The second aggregation call, point by point: what its body finds and what the three kinds of point are.

  The call walks a 16 × 8 grid: point t is row block t / 8 (1024 rows of A) and column block k = t % 8 (2048 columns of A).
  A 1024 × 128 scratch carries the running total of a row block across its eight column blocks. At k = 0 the body zeroes
  the scratch and adds the first block's product; at 0 < k < 7 it adds the block's product; at k = 7 it adds the last
  product, multiplies the total by the weight and stores the row block's result. Stated here: each window's block as read
  off the array the call finds, that an input's staging buffer holds that block at every point, the two branch conditions
  in closed form over the grid, where the result window is left untouched and not written back, and the buffers the body
  may use beside its windows.
-/
import proofs.«119406_j84456236909326_2_alg».proof.Proof.Gen.KernelIdeal.Launch
import proofs.«119406_j84456236909326_2_alg».proof.Proof.Gen.KernelIdeal.Skeleton
import proofs.«119406_j84456236909326_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the core's buffer contents when the call is entered: a parameter, fixed by the run
variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the A window holds the point's block of A at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the hidden-layer window holds the whole feature matrix at every point: it is fetched once and its block
    index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight window holds the whole weight matrix at every point, likewise. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions -/

/-- "This is the row block's first column block": the body's first test, from the grid coordinates. -/
abbrev condFirst (i : grid1.Coords) : Prop := (Scalar.cmpi .ne (Scalar.extui (Scalar.cmpi .eq (BitVec.ofNat 32 (i 1).val) 0#32)) 0#32) = 1#1
/-- It holds exactly at the points with k = 0. -/
theorem hcondFirst : ∀ t : Fin cfg1.N, condFirst (grid1.coords t) ↔ t.val % 8 = 0 :=
  (by decide +kernel : ∀ t : Fin grid1.N, condFirst (grid1.coords t) ↔ t.val % 8 = 0)

/-- "This is the row block's last column block": the body's second test. -/
abbrev condLast (i : grid1.Coords) : Prop := k1_cond2 i = 1#1
/-- It holds exactly at the points with k = 7. -/
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last column block the body stores nothing into the result window, -/
theorem idle_3 : ∀ t : Fin cfg1.N, ¬condLast (grid1.coords t) → cfg1.idle 3 (grid1.coords t) = true := by decide +kernel
/-- and the pipeline does not write the window back there; -/
theorem noFlush_3 : ∀ t : Fin cfg1.N, ¬condLast (grid1.coords t) → (cfg1.win 3).flush t = false := by decide +kernel
/-- at the last column block the body stores the whole block. -/
theorem live_3 : ∀ t : Fin cfg1.N, condLast (grid1.coords t) → cfg1.idle 3 (grid1.coords t) = false := by decide +kernel

/-! ## The memrefs the body is called with -/

abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16384x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
/-- The scratch that carries the running total: a whole scoped buffer of the call's own. -/
abbrev scM : Memref sig .tc .vmem S1024x128 .f32 := Memref.whole cc1_scratch0
/-- The scratch as a view: what it holds is stated through it. -/
abbrev VS : View sig .tc .vmem S1024x128 .f32 := scM.view
/-- One staging buffer of the result window, through which its contents are stated (the choice does not matter). -/
abbrev VO : View sig .tc .vmem S1024x128 .f32 := (Memref.whole cc1_stg3_0 : Memref sig .tc .vmem S1024x128 .f32).view

/-- The scoped buffers of the other call, which this call never touches, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the call may use beside its windows, taken apart: its scratch at some contents, the other call's scoped buffers, and
    the generator register at some state. -/
theorem PhiA_split (c : Dev nD) :
    (Pipeline.ΦA spec1 c : sProp 𝕄)
      ⊢ iprop(iprop((∃ d, owns (c : Thread nD τ) scM fullShare d) ∗ others c) ∗ (∃ r, prngReg c r)) := by
  unfold Pipeline.ΦA others; rw [scopedRest1_eq]; simp only [scM, owns_whole]
  iintro ⟨⟨A1, A2, A3, A4, A5, A6, A7, HS⟩, Hg⟩
  isplitr [Hg]
  · isplitl [HS]; · iexact HS
    isplitl [A1]; · iexact A1
    isplitl [A2]; · iexact A2
    isplitl [A3]; · iexact A3
    isplitl [A4]; · iexact A4
    isplitl [A5]; · iexact A5
    isplitl [A6]; · iexact A6
    iexact A7
  iexact Hg
/-- and put together again. -/
theorem PhiA_join (c : Dev nD) :
    (iprop(iprop((∃ d, owns (c : Thread nD τ) scM fullShare d) ∗ others c) ∗ (∃ r, prngReg c r)) : sProp 𝕄)
      ⊢ Pipeline.ΦA spec1 c := by
  unfold Pipeline.ΦA others; rw [scopedRest1_eq]; simp only [scM, owns_whole]
  iintro ⟨⟨HS, A1, A2, A3, A4, A5, A6, A7⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

end Cert.KernelIdeal.R1

end
-- ==== Proof.KiR1RunFirst.lean ====
/-
  The body at a row block's first column block: it zeroes the scratch, then adds the block's product to it.
-/
import proofs.«119406_j84456236909326_2_alg».proof.Proof.KiR1Base
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at anything, the body runs to the continuation holding the inputs as they were and each buffer it stored into with its
    pieces written. -/
noncomputable def runFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i)
    (x0 : Vec F S1024x2048 .f32) (x1 : Vec F S16384x128 .bf16) (x2 : Vec F S128x128 .f32) :
    Σ' (L3 : List (View.Piece (Elt F) S1024x128 .f32)), { LS : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨[], ?_, fun xi3 E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R1

end
-- ==== Proof.KiR1RunMid.lean ====
/-
  The body at a column block that is neither the first nor the last of its row block: it adds the block's product to the
  running total in the scratch.
-/
import proofs.«119406_j84456236909326_2_alg».proof.Proof.KiR1Base
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at contents handed back untouched, the scratch
    at what the point before left, the body runs to the continuation holding the inputs as they were and each buffer it stored into with its
    pieces written. -/
noncomputable def runMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i)
    (x0 : Vec F S1024x2048 .f32) (x1 : Vec F S16384x128 .bf16) (x2 : Vec F S128x128 .f32) (xs : Vec F S1024x128 .f32) :
    Σ' (L3 : List (View.Piece (Elt F) S1024x128 .f32)), { LS : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨[], ?_, fun xi3 E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R1

end
-- ==== Proof.KiR1RunLast.lean ====
/-
  The body at a row block's last column block: it adds the last product to the running total, multiplies the total by the
  weight matrix and stores the row block of the result.
-/
import proofs.«119406_j84456236909326_2_alg».proof.Proof.KiR1Base
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces (last first) — for the result window's staging memref and for the scratch — together with the
    body's triple at such a point: on whole memrefs, the three inputs at their contents, the result window's at anything, the scratch
    at what the point before left, the body runs to the continuation holding the inputs as they were and each buffer it stored into with its
    pieces written. -/
noncomputable def runLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i)
    (x0 : Vec F S1024x2048 .f32) (x1 : Vec F S16384x128 .bf16) (x2 : Vec F S128x128 .f32) (xs : Vec F S1024x128 .f32) :
    Σ' (L3 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__agg_linear_kernel i arg2 harg2 arg3 harg3 arg4 harg4 arg5 harg5 arg6 harg6) K } := by
  refine ⟨?_, ?_, fun E K => ?run⟩
  case run =>
    simp only [cc1__agg_linear_kernel_eq_skeleton]; unfold cc1__agg_linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.R1

end
-- ==== Proof.KiR1Frame.lean ====
/-
  The second aggregation call as a pipeline: what the scratch and the result window hold after every point, and that the body
  keeps this account.

  After the body at point t the scratch holds the running total of the row block up to column block t % 8: at a first column
  block what the zeroing and one addition leave, afterwards what one more addition leaves over the point before. The result
  window's staging buffer holds the row block of the result after a last column block and is not consulted elsewhere. The
  invariant between points keeps the scratch at exactly these contents, the other call's buffers and the generator register
  untouched; the call owes nothing. From this the body obligation of the pipeline follows at every point, by the case the
  point is in.
-/
import proofs.«119406_j84456236909326_2_alg».proof.Proof.KiR1RunFirst
import proofs.«119406_j84456236909326_2_alg».proof.Proof.KiR1RunMid
import proofs.«119406_j84456236909326_2_alg».proof.Proof.KiR1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves -/

/-- The stores of a first column block cover the scratch. -/
theorem scoverFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i) (x0 : Vec F S1024x2048 .f32) (x1 : Vec F S16384x128 .bf16) (x2 : Vec F S128x128 .f32) (y : S1024x128.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x128.size (by sl_kernel_rfl) y
/-- What a first column block leaves in the scratch. -/
def sFirst (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : condFirst i) (hc1 : ¬condLast i) (x0 : Vec F S1024x2048 .f32) (x1 : Vec F S16384x128 .bf16) (x2 : Vec F S128x128 .f32) : Vec F S1024x128 .f32 :=
  VS.read (Elt F) (VS.writes (Elt F) VS.junk (runFirst c i arg2 harg2 arg3 harg3 arg4 harg4 arg5 harg5 arg6 harg6 hc0 hc1 x0 x1 x2).2.1)

/-- The store of a middle column block covers the scratch. -/
theorem scoverMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .bf16) (x2 : Vec F S128x128 .f32) (xs : Vec F S1024x128 .f32) (y : S1024x128.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S1024x128.size (by sl_kernel_rfl) y
/-- What a middle column block leaves in the scratch, over what the point before left. -/
def sMid (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : ¬condLast i) (x0 : Vec F S1024x2048 .f32) (x1 : Vec F S16384x128 .bf16) (x2 : Vec F S128x128 .f32) (xs : Vec F S1024x128 .f32) : Vec F S1024x128 .f32 :=
  VS.read (Elt F) (VS.writes (Elt F) VS.junk (runMid c i arg2 harg2 arg3 harg3 arg4 harg4 arg5 harg5 arg6 harg6 hc0 hc1 x0 x1 x2 xs).2.1)

/-- The store of a last column block covers the scratch, -/
theorem scoverLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x128.size (by sl_kernel_rfl) y
/-- and its store into the result window covers the window's block. -/
theorem coverLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) (y : S1024x128.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x128.size (by sl_kernel_rfl) y
/-- What a last column block leaves in the scratch, -/
def sLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) : Vec F S1024x128 .f32 :=
  VS.read (Elt F) (VS.writes (Elt F) VS.junk (runLast c i arg2 harg2 arg3 harg3 arg4 harg4 arg5 harg5 arg6 harg6 hc0 hc1 x0 x1 x2 xs).2.1)
/-- and in the result window's staging buffer. -/
def oLast (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬condFirst i) (hc1 : condLast i) (x0 : Vec F S1024x2048 .f32) (x1 : Vec F S16384x128 .bf16) (x2 : Vec F S128x128 .f32) (xs : Vec F S1024x128 .f32) : Vec F S1024x128 .f32 :=
  VO.read (Elt F) (VO.writes (Elt F) VO.junk (runLast c i arg2 harg2 arg3 harg3 arg4 harg4 arg5 harg5 arg6 harg6 hc0 hc1 x0 x1 x2 xs).1)
/-- Where the body stores nothing into the result window its contents are not consulted: a placeholder. -/
def oIdle : Vec F S1024x128 .f32 := VO.read (Elt F) (VO.writes (Elt F) VO.junk [])

section
variable (V : (c : Dev nD) → (b : Ref sig .tc) → Buf (Elt F) ((c : Thread nD τ).loc b))

/-! ## The accumulation, point by point -/

/-- What the result window's staging buffer and the scratch hold after the body at point n: the case the point is in, run at
    the point's memrefs and blocks, over the scratch as the point before left it. -/
def outsAt (c : Dev nD) : (n : ℕ) → n < cfg1.N → Vec F S1024x128 .f32 × Vec F S1024x128 .f32
  | 0, hn => (oIdle, sFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      (oIdle, sFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h7 : (n + 1) % 8 = 7 then
        (oLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2,
         sLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h7) (iblk V c 0 ⟨n + 1, hn⟩) (iblk V c 1 ⟨n + 1, hn⟩) (iblk V c 2 ⟨n + 1, hn⟩) (outsAt c n (Nat.lt_of_succ_lt hn)).2)
      else
        (oIdle, sMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h7 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a first column block. -/
theorem outsAt_first (c : Dev nD) (t : Fin cfg1.N) (h0 : t.val % 8 = 0) (h7 : ¬t.val % 8 = 7) :
    outsAt V c t.val t.isLt = (oIdle, sFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)) := by
  obtain ⟨n, hn⟩ := t
  cases n with
  | zero => exact rfl
  | succ n => exact (dif_pos h0).trans rfl

/-- At a middle column block, over what the point before left. -/
theorem outsAt_mid (c : Dev nD) (t : Fin cfg1.N) (h0 : ¬t.val % 8 = 0) (h7 : ¬t.val % 8 = 7) :
    outsAt V c t.val t.isLt = (oIdle, sMid c (grid1.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h7).trans rfl)

/-- At a last column block, over what the point before left. -/
theorem outsAt_last (c : Dev nD) (t : Fin cfg1.N) (h0 : ¬t.val % 8 = 0) (h7 : t.val % 8 = 7) :
    outsAt V c t.val t.isLt = (oLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2,
      sLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The invariant between points -/

/-- Before the first point the call's scratch is at anything; after point n it holds what that point left. The other call's
    scoped buffers and the generator register ride along untouched. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the call finds them; after the body at a point each input's buffer at its block and the result window's at
    the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) :=
  ⟨by unfold Dat.leavesExact; rw [live_0 t, after_0], by unfold Dat.leavesExact; rw [live_1 t, after_1],
   by unfold Dat.leavesExact; rw [live_2 t, after_2]⟩

set_option maxHeartbeats 4800000 in
/-- The body at any point: the inputs' buffers hold their blocks; the closed forms say which case the point is in; the
    invariant hands the body the scratch at what the point before left (at anything at the very first point, and at a later
    first column block its old contents are simply forgotten) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 8 = 0
  · have h7 : ¬t.val % 8 = 7 := by omega
    rw [Dat.leavesExact_idle (dat V c) 3 t (idle_3 t (fun h => h7 ((hcondLast t).mp h))) (noFlush_3 t (fun h => h7 ((hcondLast t).mp h)))]
    rw [outsAt_first V c t h0 h7]
    unfold sFirst; (try dsimp only)
    by_cases hz : t.val = 0
    · rw [PhiS_castSucc V c t, PhiS_zero V c _ _ hz]
      refine (sep_mono (PhiA_split c) .rfl).trans ?_
      iintro ⟨⟨⟨HS, Hoth⟩, Hg⟩, Ho, ⟨%d0, H0⟩, ⟨%d1, H1⟩, ⟨%d2, H2⟩, ⟨%d3, H3⟩⟩
      iapply ((runFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) (ms_0 t) (hs_0 t) (ms_1 t) (hs_1 t) (ms_2 t) (hs_2 t) (ms_3 t) (hs_3 t) scM (Memref.isWhole_whole _) ((hcondFirst t).mpr h0) (fun h => h7 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat V c).leavesExact 3 t = owns (c : Thread nD τ) (ms_3 t) fullShare ((dat V c).after 3 t) from by
        unfold Dat.leavesExact; rw [live_3 t ((hcondLast t).mpr h7)], after_3]
      rw [outsAt_last V c t h0 h7]
      unfold oLast sLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_3 t (fun h => h7 ((hcondLast t).mp h))) (noFlush_3 t (fun h => h7 ((hcondLast t).mp h)))]
      rw [outsAt_mid V c t h0 h7]
      unfold sMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) (ms_0 t) (hs_0 t) (ms_1 t) (hs_1 t) (ms_2 t) (hs_2 t) (ms_3 t) (hs_3 t) scM (Memref.isWhole_whole _) (fun h => h0 ((hcondFirst t).mp h)) (fun h => h7 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · isplitl [HS]
          · unfold owns; iexists _; isplitr
            swap; · iexact HS
            ipureintro; exact View.read_writes_of_cover _ _ _ _ _ (scoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the call is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA_join c)
  iintro ⟨⟨HS, Hoth⟩, Hg⟩
  isplitl [HS Hoth]
  · isplitl [HS]
    · iexists _; iexact HS
    iexact Hoth
  iexact Hg

end

end Cert.KernelIdeal.R1

end
-- ==== Proof.KiWhole.lean ====
/-
  The whole program: two host transposes, then the two aggregation calls, the second reading the first one's result.

  The contents of the core's unscoped buffers are followed through the program: as launched; with the two transposed weights
  written; with the first call's result array at what its write-backs leave; with the second call's result array likewise.
  Each call is a segment entered with the buffers at the contents before it; its pipeline's proof data are those of its
  frame module at these entry contents. No item writes an argument array, so every argument ends as launched.
-/
import proofs.«119406_j84456236909326_2_alg».proof.Proof.KiR0Frame
import proofs.«119406_j84456236909326_2_alg».proof.Proof.KiR1Frame
import proofs.«119406_j84456236909326_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents each call is entered with -/

/-- What the first call finds, at the core's references: the launch contents with the two transposed weights written. -/
abbrev Ve0 (c : Dev nD) (b : Ref sig .tc) : Buf (Elt F) ((c : Thread nD τ).loc b) := V1 m c b

/-- What the first call leaves in its result array. -/
def o2 (c : Dev nD) : Buf (Elt F) ((c : Thread nD τ).loc main_v2) := (R0.dat (Ve0 m) c).arrAt 3 cfg0.N

/-- The regions' results with only the first call's filled in (the second call's entry contents are stated over it). -/
def outs0 : Outs (F := F) := fun _ r c => if h : r = main_v2 then h ▸ o2 m c else m ((c : Thread nD τ).loc r)
theorem outs0_v2 (J : ℕ) (c : Dev nD) : outs0 m J main_v2 c = o2 m c := dif_pos rfl

/-- What the second call finds: the first call's entry contents with its result array written. -/
abbrev Ve1 (c : Dev nD) (b : Ref sig .tc) : Buf (Elt F) ((c : Thread nD τ).loc b) := V2 m (outs0 m) c b

/-- What the second call leaves in its result array. -/
def o3 (c : Dev nD) : Buf (Elt F) ((c : Thread nD τ).loc main_v3) := (R1.dat (Ve1 m) c).arrAt 3 cfg1.N

/-- What the two calls leave in their result arrays. -/
def outs : Outs (F := F) := fun J r c => if h : r = main_v3 then h ▸ o3 m c else outs0 m J r c
theorem outs_v2 (J : ℕ) (c : Dev nD) : outs m J main_v2 c = o2 m c :=
  (dif_neg (by decide)).trans (outs0_v2 m J c)
theorem outs_v3 (J : ℕ) (c : Dev nD) : outs m J main_v3 c = o3 m c := dif_pos rfl

/-- The contents after the first call do not depend on the second call's result. -/
theorem V2_outs (c : Dev nD) : V2 m (outs m) c = V2 m (outs0 m) c := by
  show Function.update (V1 m c) main_v2 (outs m 2 main_v2 c) = Function.update (V1 m c) main_v2 (outs0 m 2 main_v2 c)
  rw [outs_v2, outs0_v2]

/-! ## The proof data of both pipelines -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 m) c

abbrev 𝒱 : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-! ## The first call's arrays at its exit -/

theorem hF0 (c : Dev nD) (w : Fin cfg0.W) : (pdats m 0 c).arrAt w cfg0.N = V2 m (outs m) c (Pipeline.arrRef spec0 w) :=
  match w with
  | ⟨0, _⟩ => (((R0.dat (Ve0 m) c).arrAt_in 0 rfl _).trans (R0.A_eq (Ve0 m) c 0)).trans (V2_of m (outs m) c main_arg0 (by decide)).symm
  | ⟨1, _⟩ => (((R0.dat (Ve0 m) c).arrAt_in 1 rfl _).trans (R0.A_eq (Ve0 m) c 1)).trans (V2_of m (outs m) c main_arg1 (by decide)).symm
  | ⟨2, _⟩ => (((R0.dat (Ve0 m) c).arrAt_in 2 rfl _).trans (R0.A_eq (Ve0 m) c 2)).trans (V2_of m (outs m) c main_v0 (by decide)).symm
  | ⟨3, _⟩ => by
    show o2 m c = Function.update (V1 m c) main_v2 (outs m 2 main_v2 c) main_v2
    rw [Function.update_self, outs_v2]
theorem hrest0 (c : Dev nD) : ∀ b, b ∉ Finset.univ.image (Pipeline.arrRef spec0) → V2 m (outs m) c b = Ve0 m c b :=
  fun b hb => V2_of m (outs m) c b (by
    intro hmem
    have : b = main_v2 := by simpa using hmem
    exact hb (Finset.mem_image.mpr ⟨3, Finset.mem_univ _, this.symm ▸ rfl⟩))

/-! ## The second call's arrays at its exit -/

theorem hF1 (c : Dev nD) (w : Fin cfg1.W) : (pdats m 1 c).arrAt w cfg1.N = V3 m (outs m) c (Pipeline.arrRef spec1 w) :=
  match w with
  | ⟨0, _⟩ => (((R1.dat (Ve1 m) c).arrAt_in 0 rfl _).trans (R1.A_eq (Ve1 m) c 0)).trans
      ((congrFun (V2_outs m c) _).symm.trans (V3_of m (outs m) c main_arg0 (by decide)).symm)
  | ⟨1, _⟩ => (((R1.dat (Ve1 m) c).arrAt_in 1 rfl _).trans (R1.A_eq (Ve1 m) c 1)).trans
      ((congrFun (V2_outs m c) _).symm.trans (V3_of m (outs m) c main_v2 (by decide)).symm)
  | ⟨2, _⟩ => (((R1.dat (Ve1 m) c).arrAt_in 2 rfl _).trans (R1.A_eq (Ve1 m) c 2)).trans
      ((congrFun (V2_outs m c) _).symm.trans (V3_of m (outs m) c main_v1 (by decide)).symm)
  | ⟨3, _⟩ => by
    show o3 m c = Function.update (V2 m (outs m) c) main_v3 (outs m 3 main_v3 c) main_v3
    rw [Function.update_self, outs_v3]
theorem hrest1 (c : Dev nD) : ∀ b, b ∉ Finset.univ.image (Pipeline.arrRef spec1) → V3 m (outs m) c b = Ve1 m c b :=
  fun b hb => (V3_of m (outs m) c b (by
    intro hmem
    have : b = main_v3 := by simpa using hmem
    exact hb (Finset.mem_image.mpr ⟨3, Finset.mem_univ _, this.symm ▸ rfl⟩))).trans (congrFun (V2_outs m c) _)

/-! ## The calls as segments -/

set_option backward.isDefEq.respectTransparency.types false in
/-- Call 0 as a segment of the program: entered with every unscoped buffer at the contents before it, left with its result
    array at what its write-backs leave and every other buffer as entered. Its arrays are split out of the unscoped buffers
    and put back; the generator register passes through the invariant; nothing is owed; the call has no semaphore of its own. -/
def reg0 : Pipeline.RegionSeg (pcfgs (F := F)) adm (pdats m) () defs₀ 𝒱 L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from R0.hin (Ve0 m) c)
    unfold Pipeline.ΦA
    iintro ⟨Hp, -, Hr⟩
    isplitl [Hr]; · iexact Hr
    iexact Hp
  hout c := by
    refine BIBase.Entails.trans (show (pdats m 0 c).Φ (Fin.last _) ⊢ Pipeline.ΦA spec0 c from R0.hout (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with its result
    array at what its write-backs leave and every other buffer as entered. Its arrays are split out of the unscoped buffers
    and put back; the generator register passes through the invariant; nothing is owed; the call has no semaphore of its own. -/
def reg1 : Pipeline.RegionSeg (pcfgs (F := F)) adm (pdats m) () defs₀ 𝒱 L lv 1 where
  win := launch1.win.to₀
  block_pos := launch1.block_pos
  stage_whole := launch1.stage_whole
  K := PEmpty
  osem k := k.elim
  ho := Pipeline.OwnSemFacts.none _
  hbody c := (R1.body_obligation (Ve1 m) c).loose
  hwaits := Pipeline.hwaits_of_owed_zero _ _ _ _ L lv 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from R1.hin (Ve1 m) c)
    unfold Pipeline.ΦA
    iintro ⟨Hp, -, Hr⟩
    isplitl [Hr]; · iexact Hr
    iexact Hp
  hout c := by
    refine BIBase.Entails.trans (show (pdats m 1 c).Φ (Fin.last _) ⊢ Pipeline.ΦA spec1 c from R1.hout (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program terminates, nothing faults, and every
    argument array ends as launched: the conditional frame of the program's items at the two calls' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱 L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.KernelIdeal.Whole

end
-- ==== Proof.KiRun.lean ====
/-
  The idealized program's run with its result named: every weakly fair execution terminates, the result array ends at what the
  second call's write-backs leave, and the arguments end as launched. The program's items are those of the frame; at the end
  the result array is read off the last contents beside the arguments.
-/
import proofs.«119406_j84456236909326_2_alg».proof.Proof.KiWhole

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The last contents at the result array are what the second call leaves there. -/
theorem V3_main_v3 (c : Dev nD) : V3 m (outs m) c main_v3 = o3 m c := by
  show Function.update (V2 m (outs m) c) main_v3 (outs m 3 main_v3 c) main_v3 = o3 m c
  rw [Function.update_self, outs_v3]

set_option backward.isDefEq.respectTransparency.types false in
/-- The run, with the result array's final contents named. -/
theorem run_out (ρ : Dev nD → PrngReg) : θ_run defs (onTc (τ := τ) (main (F := F))) ⟨m, fun _ => 0, ρ⟩ (fun r => ∀ c : Dev nD,
      r.2.mem ((c.tc : Thread nD τ).loc main_v3) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱 L lv m ρ main
    (segs m 𝒱 L lv (fun _ c => Rst c) () (pdats m) (reg0 m) (reg1 m))
    (fun c Q => by
      rewrite [main_chain c, Seg.run_eq_chain,
        show (segs m 𝒱 L lv (fun _ c => Rst c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V3 m (outs m) c))
    (hch := fun c => ⟨.rfl, .rfl, .rfl, sep_mono .rfl (by iintro ⟨-, HO⟩; iexact HO)⟩)
    (hinit := ?_)
    (QY := fun c s => s.mem ((c.tc : Thread nD τ).loc main_v3) = o3 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: each core holds its unscoped buffers at the launch contents, its generator register, and owes nothing
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result array and each argument read off the last contents
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (V3_main_v3 m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c)⟩
    · iexact HSI

end Cert.KernelIdeal.Whole

end
-- ==== Proof.KiEntry.lean ====
/-
  What the two calls find in the arrays they read: the adjacency matrix and the features as launched, the weights transposed by
  the two host operations before the calls, and — for the second call — the first call's result.
-/
import proofs.«119406_j84456236909326_2_alg».proof.Proof.KiWhole
import Idealize.ShloMosaic.Lib.StableHlo.Run

noncomputable section

namespace Cert.KernelIdeal.Whole

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

/-- The first call reads the adjacency matrix as launched, -/
theorem Ve0_arg0 (c : Dev nD) : Ve0 m c main_arg0 = m ((c : Thread nD τ).loc main_arg0) :=
  (V1_of m c main_arg0 (by decide)).trans rfl
/-- the features as launched, -/
theorem Ve0_arg1 (c : Dev nD) : Ve0 m c main_arg1 = m ((c : Thread nD τ).loc main_arg1) :=
  (V1_of m c main_arg1 (by decide)).trans rfl
/-- and the first weight matrix transposed. -/
theorem Ve0_v0 (c : Dev nD) :
    (Ve0 m c main_v0 : S128x128.Idx → Elt F .f32) = transpose S128x128 [1, 0] (m ((c : Thread nD τ).loc main_arg2)) transposes_S128x128_S128x128_1_0 := by
  dsimp only [Ve0, V1, V0, hostOps0]; after_results <;> rfl

/-- The second call reads the adjacency matrix as launched, -/
theorem Ve1_arg0 (c : Dev nD) : Ve1 m c main_arg0 = m ((c : Thread nD τ).loc main_arg0) :=
  (V2_of m (outs0 m) c main_arg0 (by decide)).trans ((V1_of m c main_arg0 (by decide)).trans rfl)
/-- the first call's result, -/
theorem Ve1_v2 (c : Dev nD) : Ve1 m c main_v2 = o2 m c := by
  show Function.update (V1 m c) main_v2 (outs0 m 2 main_v2 c) main_v2 = o2 m c
  rw [Function.update_self, outs0_v2]
/-- and the second weight matrix transposed. -/
theorem Ve1_v1 (c : Dev nD) :
    (Ve1 m c main_v1 : S128x128.Idx → Elt F .f32) = transpose S128x128 [1, 0] (m ((c : Thread nD τ).loc main_arg3)) transposes_S128x128_S128x128_1_0 := by
  refine (V2_of m (outs0 m) c main_v1 (by decide)).trans ?_
  dsimp only [V1, V0, hostOps0]; after_results <;> rfl

end Cert.KernelIdeal.Whole

end
-- ==== Proof.KiR0Blocks.lean ====
/-
  The first aggregation call, from blocks to arrays.

  The call walks a 16 × 8 grid: point t is row block t / 8 and column block t % 8. Stated here, by coordinates: where each
  point sits on the grid; what each input window's block at a point is as a part of its array (the block of A at point t
  is rows 1024 (t / 8) … and columns 2048 (t % 8) … of A; the other two inputs are whole arrays at every point); and
  that the result array, after the run, is any array G whose row block t / 8 is what the point t with t % 8 = 7 leaves in
  the result window: those are the points that write the window back, their blocks are the sixteen row blocks, and the row
  blocks cover the array.
-/
import proofs.«119406_j84456236909326_2_alg».proof.Proof.KiR0Frame
import Idealize.ShloMosaic.Lib.Pipeline.Value
import Idealize.ShloMosaic.Lib.ValueIdx

set_option maxRecDepth 16384

noncomputable section

namespace Cert.KernelIdeal.R0B

open Idealize.ShloMosaic Idealize.ShloMosaic.TcCoe Idealize.ShloMosaic.ValueIdx
open Idealize.SL.Sem
open Idealize.ShloMosaic.Pipeline (Dat)
open Cert.KernelIdeal Cert.KernelIdeal.Gen

variable {F : FTy → Type} [FloatOps F]

/-! ## The grid by coordinates -/

/-- The grid has 128 points. -/
theorem lt128 (t : Fin cfg0.N) : t.val < 128 := lt_of_lt_of_eq t.isLt (show cfg0.N = 128 from N_0)

/-- Point t is in row block t / 8 -/
theorem coords_row : ∀ t : Fin cfg0.N, (grid0.coords t 0).val = t.val / 8 :=
  (by decide +kernel : ∀ t : Fin grid0.N, (grid0.coords t 0).val = t.val / 8)
/-- and column block t % 8. -/
theorem coords_col : ∀ t : Fin cfg0.N, (grid0.coords t 1).val = t.val % 8 :=
  (by decide +kernel : ∀ t : Fin grid0.N, (grid0.coords t 1).val = t.val % 8)

/-- The block of A at point t is block (t / 8, t % 8). -/
theorem idx_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- The feature window's block never moves. -/
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The weight window's block never moves. -/
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The result window's block at point t is row block t / 8. -/
theorem idx_3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

section
variable (V : (c : Dev nD) → (b : Ref sig .tc) → Buf (Elt F) ((c : Thread nD τ).loc b))

/-! ## The input blocks as parts of their arrays -/

/-- The block of A at point t, at (p, j), is A at row 1024 (t / 8) + p and column 2048 (t % 8) + j. -/
theorem iblk0_apply (c : Dev nD) (t : Fin cfg0.N) (p : Fin 1024) (j : Fin 2048) :
    R0.iblk V c 0 t (ix2 p j)
      = V c main_arg0 (ix2 (⟨1024 * (t.val / 8) + p.val, by have := lt128 t; have := p.isLt; omega⟩ : Fin 16384)
          (⟨2048 * (t.val % 8) + j.val, by have := j.isLt; omega⟩ : Fin 16384)) := by
  have e := idx_0 t
  unfold R0.iblk
  rw [View.read_apply]
  show V c main_arg0 _ = V c main_arg0 _
  refine congrArg (V c main_arg0) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 2048 + 1 * j.val = 2048 * (t.val % 8) + j.val; omega

/-- The feature window's block at any point is the whole feature matrix. -/
theorem iblk1_apply (c : Dev nD) (t : Fin cfg0.N) (r : Fin 16384) (d : Fin 128) :
    R0.iblk V c 1 t (ix2 r d) = V c main_arg1 (ix2 r d) := by
  have e := idx_1 t
  unfold R0.iblk
  rw [View.read_apply]
  show V c main_arg1 _ = V c main_arg1 _
  refine congrArg (V c main_arg1) (funext fun a => Fin.ext ?_)
  match a with
  | ⟨0, _⟩ => show win0_1.index t (0 : Fin 2) * 16384 + 1 * r.val = r.val; omega
  | ⟨1, _⟩ => show win0_1.index t (1 : Fin 2) * 128 + 1 * d.val = d.val; omega

/-- The weight window's block at any point is the whole weight matrix. -/
theorem iblk2_apply (c : Dev nD) (t : Fin cfg0.N) (d h : Fin 128) :
    R0.iblk V c 2 t (ix2 d h) = V c main_v0 (ix2 d h) := by
  have e := idx_2 t
  unfold R0.iblk
  rw [View.read_apply]
  show V c main_v0 _ = V c main_v0 _
  refine congrArg (V c main_v0) (funext fun a => Fin.ext ?_)
  match a with
  | ⟨0, _⟩ => show win0_2.index t (0 : Fin 2) * 128 + 1 * d.val = d.val; omega
  | ⟨1, _⟩ => show win0_2.index t (1 : Fin 2) * 128 + 1 * h.val = h.val; omega

/-! ## From the row blocks to the result array -/

/-- An index of the result array is in point t's block iff each coordinate is in the block's range on its axis. -/
theorem mem_blk3 (t : Fin cfg0.N) (i : S16384x128.Idx) :
    i ∈ ((cfg0.win 3).blk t).view.set
      ↔ ∀ a : Fin 2, win0_3.index t a * S1024x128.size a ≤ (i a).val
          ∧ (i a).val < win0_3.index t a * S1024x128.size a + S1024x128.size a := by
  show i ∈ ((View.whole main_v2).slice (win0_3.rect t)).set ↔ _
  rw [View.set_slice_whole, Rect.mem_set_unit]
  exact Iff.rfl

/-- Every index of the result array is in the block of a point that writes the window back: row r is in the block of the
    last point of row block r / 1024. -/
theorem cover3 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ : ∃ t : Fin cfg0.N, t.val = 8 * ((i 0).val / 1024) + 7 :=
    ⟨⟨8 * ((i 0).val / 1024) + 7, lt_of_lt_of_eq (by omega : 8 * ((i 0).val / 1024) + 7 < 128) (show cfg0.N = 128 from N_0).symm⟩, rfl⟩
  have e := idx_3 t
  refine ⟨t, (flush0_3 t).mpr (by omega), ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- What a point that writes the window back writes is its row block of G, when G's row blocks are what those points leave
    in the result window. -/
theorem flushed3_eq (c : Dev nD) (G : Vec F S16384x128 .bf16)
    (hG : ∀ (t : Fin cfg0.N) (h7 : t.val % 8 = 7) (p : Fin 1024) (q : Fin 128),
      (R0.outsAt V c t.val t.isLt).1 (ix2 p q)
        = G (ix2 (⟨1024 * (t.val / 8) + p.val, by have := lt128 t; have := p.isLt; omega⟩ : Fin 16384) q))
    (t : Fin cfg0.N) (hf : (cfg0.win 3).flush t = true) :
    (R0.dat V c).flushed 3 t = ((cfg0.win 3).blk t).view.read (Elt F) G := by
  have h7 : t.val % 8 = 7 := (flush0_3 t).mp hf
  have e := idx_3 t
  show (cfg0.win 3).cut (grid0.coords t) ((R0.dat V c).after 3 t) = _
  rw [R0.after_3]
  funext y
  obtain ⟨p, q, rfl⟩ : ∃ (p : Fin 1024) (q : Fin 128), y = ix2 p q := ⟨y 0, y 1, eq_ix2 y⟩
  refine (hG t h7 p q).trans ?_
  rw [View.read_apply]
  show G _ = G _
  refine congrArg G (funext fun a => Fin.ext ?_)
  match a with
  | ⟨0, _⟩ => show 1024 * (t.val / 8) + p.val = win0_3.index t (0 : Fin 2) * 1024 + 1 * p.val; omega
  | ⟨1, _⟩ => show q.val = win0_3.index t (1 : Fin 2) * 128 + 1 * q.val; omega

/-- The result array after the run is G, for any array G whose row block t / 8 is what the point t with t % 8 = 7 leaves
    in the result window. -/
theorem final_of (c : Dev nD) (G : Vec F S16384x128 .bf16)
    (hG : ∀ (t : Fin cfg0.N) (h7 : t.val % 8 = 7) (p : Fin 1024) (q : Fin 128),
      (R0.outsAt V c t.val t.isLt).1 (ix2 p q)
        = G (ix2 (⟨1024 * (t.val / 8) + p.val, by have := lt128 t; have := p.isLt; omega⟩ : Fin 16384) q)) :
    (R0.dat V c).arrAt 3 cfg0.N = G :=
  (R0.dat V c).arrAt_eq_of_cover 3 G (flushed3_eq V c G hG) (fun i => cover3 i)

end

end Cert.KernelIdeal.R0B

end
-- ==== Proof.KiR1Blocks.lean ====
/-
  The second aggregation call, from blocks to arrays.

  The call walks a 16 × 8 grid: point t is row block t / 8 and column block t % 8. Stated here, by coordinates: where each
  point sits on the grid; what each input window's block at a point is as a part of its array (the block of A at point t
  is rows 1024 (t / 8) … and columns 2048 (t % 8) … of A; the other two inputs are whole arrays at every point); and
  that the result array, after the run, is any array G whose row block t / 8 is what the point t with t % 8 = 7 leaves in
  the result window: those are the points that write the window back, their blocks are the sixteen row blocks, and the row
  blocks cover the array.
-/
import proofs.«119406_j84456236909326_2_alg».proof.Proof.KiR1Frame
import Idealize.ShloMosaic.Lib.Pipeline.Value
import Idealize.ShloMosaic.Lib.ValueIdx

set_option maxRecDepth 16384

noncomputable section

namespace Cert.KernelIdeal.R1B

open Idealize.ShloMosaic Idealize.ShloMosaic.TcCoe Idealize.ShloMosaic.ValueIdx
open Idealize.SL.Sem
open Idealize.ShloMosaic.Pipeline (Dat)
open Cert.KernelIdeal Cert.KernelIdeal.Gen

variable {F : FTy → Type} [FloatOps F]

/-! ## The grid by coordinates -/

/-- The grid has 128 points. -/
theorem lt128 (t : Fin cfg1.N) : t.val < 128 := lt_of_lt_of_eq t.isLt (show cfg1.N = 128 from N_1)

/-- Point t is in row block t / 8 -/
theorem coords_row : ∀ t : Fin cfg1.N, (grid1.coords t 0).val = t.val / 8 :=
  (by decide +kernel : ∀ t : Fin grid1.N, (grid1.coords t 0).val = t.val / 8)
/-- and column block t % 8. -/
theorem coords_col : ∀ t : Fin cfg1.N, (grid1.coords t 1).val = t.val % 8 :=
  (by decide +kernel : ∀ t : Fin grid1.N, (grid1.coords t 1).val = t.val % 8)

/-- The block of A at point t is block (t / 8, t % 8). -/
theorem idx_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
/-- The hidden-layer window's block never moves. -/
theorem idx_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The weight window's block never moves. -/
theorem idx_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- The result window's block at point t is row block t / 8. -/
theorem idx_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

section
variable (V : (c : Dev nD) → (b : Ref sig .tc) → Buf (Elt F) ((c : Thread nD τ).loc b))

/-! ## The input blocks as parts of their arrays -/

/-- The block of A at point t, at (p, j), is A at row 1024 (t / 8) + p and column 2048 (t % 8) + j. -/
theorem iblk0_apply (c : Dev nD) (t : Fin cfg1.N) (p : Fin 1024) (j : Fin 2048) :
    R1.iblk V c 0 t (ix2 p j)
      = V c main_arg0 (ix2 (⟨1024 * (t.val / 8) + p.val, by have := lt128 t; have := p.isLt; omega⟩ : Fin 16384)
          (⟨2048 * (t.val % 8) + j.val, by have := j.isLt; omega⟩ : Fin 16384)) := by
  have e := idx_0 t
  unfold R1.iblk
  rw [View.read_apply]
  show V c main_arg0 _ = V c main_arg0 _
  refine congrArg (V c main_arg0) (funext fun a => Fin.ext ?_)
  match a with
  | ⟨0, _⟩ => show win1_0.index t (0 : Fin 2) * 1024 + 1 * p.val = 1024 * (t.val / 8) + p.val; omega
  | ⟨1, _⟩ => show win1_0.index t (1 : Fin 2) * 2048 + 1 * j.val = 2048 * (t.val % 8) + j.val; omega

/-- The hidden-layer window's block at any point is the whole hidden-layer matrix. -/
theorem iblk1_apply (c : Dev nD) (t : Fin cfg1.N) (r : Fin 16384) (d : Fin 128) :
    R1.iblk V c 1 t (ix2 r d) = V c main_v2 (ix2 r d) := by
  have e := idx_1 t
  unfold R1.iblk
  rw [View.read_apply]
  show V c main_v2 _ = V c main_v2 _
  refine congrArg (V c main_v2) (funext fun a => Fin.ext ?_)
  match a with
  | ⟨0, _⟩ => show win1_1.index t (0 : Fin 2) * 16384 + 1 * r.val = r.val; omega
  | ⟨1, _⟩ => show win1_1.index t (1 : Fin 2) * 128 + 1 * d.val = d.val; omega

/-- The weight window's block at any point is the whole weight matrix. -/
theorem iblk2_apply (c : Dev nD) (t : Fin cfg1.N) (d h : Fin 128) :
    R1.iblk V c 2 t (ix2 d h) = V c main_v1 (ix2 d h) := by
  have e := idx_2 t
  unfold R1.iblk
  rw [View.read_apply]
  show V c main_v1 _ = V c main_v1 _
  refine congrArg (V c main_v1) (funext fun a => Fin.ext ?_)
  match a with
  | ⟨0, _⟩ => show win1_2.index t (0 : Fin 2) * 128 + 1 * d.val = d.val; omega
  | ⟨1, _⟩ => show win1_2.index t (1 : Fin 2) * 128 + 1 * h.val = h.val; omega

/-! ## From the row blocks to the result array -/

/-- An index of the result array is in point t's block iff each coordinate is in the block's range on its axis. -/
theorem mem_blk3 (t : Fin cfg1.N) (i : S16384x128.Idx) :
    i ∈ ((cfg1.win 3).blk t).view.set
      ↔ ∀ a : Fin 2, win1_3.index t a * S1024x128.size a ≤ (i a).val
          ∧ (i a).val < win1_3.index t a * S1024x128.size a + S1024x128.size a := by
  show i ∈ ((View.whole main_v3).slice (win1_3.rect t)).set ↔ _
  rw [View.set_slice_whole, Rect.mem_set_unit]
  exact Iff.rfl

/-- Every index of the result array is in the block of a point that writes the window back: row r is in the block of the
    last point of row block r / 1024. -/
theorem cover3 (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  obtain ⟨t, ht⟩ : ∃ t : Fin cfg1.N, t.val = 8 * ((i 0).val / 1024) + 7 :=
    ⟨⟨8 * ((i 0).val / 1024) + 7, lt_of_lt_of_eq (by omega : 8 * ((i 0).val / 1024) + 7 < 128) (show cfg1.N = 128 from N_1).symm⟩, rfl⟩
  have e := idx_3 t
  refine ⟨t, (flush1_3 t).mpr (by omega), ?_⟩
  rw [mem_blk3]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 128 ≤ (i 1).val ∧ (i 1).val < win1_3.index t (1 : Fin 2) * 128 + 128
    omega

/-- What a point that writes the window back writes is its row block of G, when G's row blocks are what those points leave
    in the result window. -/
theorem flushed3_eq (c : Dev nD) (G : Vec F S16384x128 .f32)
    (hG : ∀ (t : Fin cfg1.N) (h7 : t.val % 8 = 7) (p : Fin 1024) (q : Fin 128),
      (R1.outsAt V c t.val t.isLt).1 (ix2 p q)
        = G (ix2 (⟨1024 * (t.val / 8) + p.val, by have := lt128 t; have := p.isLt; omega⟩ : Fin 16384) q))
    (t : Fin cfg1.N) (hf : (cfg1.win 3).flush t = true) :
    (R1.dat V c).flushed 3 t = ((cfg1.win 3).blk t).view.read (Elt F) G := by
  have h7 : t.val % 8 = 7 := (flush1_3 t).mp hf
  have e := idx_3 t
  show (cfg1.win 3).cut (grid1.coords t) ((R1.dat V c).after 3 t) = _
  rw [R1.after_3]
  funext y
  obtain ⟨p, q, rfl⟩ : ∃ (p : Fin 1024) (q : Fin 128), y = ix2 p q := ⟨y 0, y 1, eq_ix2 y⟩
  refine (hG t h7 p q).trans ?_
  rw [View.read_apply]
  show G _ = G _
  refine congrArg G (funext fun a => Fin.ext ?_)
  match a with
  | ⟨0, _⟩ => show 1024 * (t.val / 8) + p.val = win1_3.index t (0 : Fin 2) * 1024 + 1 * p.val; omega
  | ⟨1, _⟩ => show q.val = win1_3.index t (1 : Fin 2) * 128 + 1 * q.val; omega

/-- The result array after the run is G, for any array G whose row block t / 8 is what the point t with t % 8 = 7 leaves
    in the result window. -/
theorem final_of (c : Dev nD) (G : Vec F S16384x128 .f32)
    (hG : ∀ (t : Fin cfg1.N) (h7 : t.val % 8 = 7) (p : Fin 1024) (q : Fin 128),
      (R1.outsAt V c t.val t.isLt).1 (ix2 p q)
        = G (ix2 (⟨1024 * (t.val / 8) + p.val, by have := lt128 t; have := p.isLt; omega⟩ : Fin 16384) q)) :
    (R1.dat V c).arrAt 3 cfg1.N = G :=
  (R1.dat V c).arrAt_eq_of_cover 3 G (flushed3_eq V c G hG) (fun i => cover3 i)

end

end Cert.KernelIdeal.R1B

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.PayIdeal.lean ====
/-
  The two kernels' arithmetic read entry by entry on the extended reals.

  Each grid point of either kernel holds a 1024 × 2048 block of the adjacency matrix, a 2048 × 128 block of the matrix
  being aggregated, a 1024 × 128 running total and a 128 × 128 weight matrix. Its three stored values are: the zero
  block that starts the running total; the running total plus the product of the two blocks; and, from the finished
  total, its product with the weight matrix, cut off below at zero in the first layer and left as it is in the second.
  On the extended reals a change of float format is the identity and so is a reshaping to the same shape, the zero word
  is the number 0, and a matrix product into the zero accumulator is, at (p, q), the sum over the contraction position
  of the products of the two entries. The lemmas below say this at an entry (p, q) written by its coordinates.
-/
import proofs.«119406_j84456236909326_2_alg».proof.Proof.Gen.KernelIdeal.Skeleton
import proofs.«119406_j84456236909326_2_alg».proof.Proof.LibMatmulPlain
import Idealize.ShloMosaic.Lib.Pipeline.Value

namespace Cert.Gcn.Pay

open Idealize.ShloMosaic Idealize.ShloMosaic.ValueIdx
open Cert.KernelIdeal Cert.KernelIdeal.Gen
open scoped BigOperators

/-- The aggregation product's dimension numbers are the plain ones: rows × contraction times contraction × columns. -/
theorem dotAgg_eq_plain :
    dot_S1024x2048_S2048x128_S1024x128_1_0_0_1_n_n = DotDims.plain 1024 2048 128 := rfl

/-- So are the weight product's. -/
theorem dotLin_eq_plain :
    dot_S1024x128_S128x128_S1024x128_1_0_0_1_n_n = DotDims.plain 1024 128 128 := rfl

/-- The aggregation product into the zero accumulator at (p, q): the sum over the 2048 columns j of the block of
    L (p, j) · R (j, q), for operands of any two float formats. -/
theorem matmulAgg_apply {φ₁ φ₂ : FTy} (L : FVec Ideal S1024x2048 φ₁) (R : FVec Ideal S2048x128 φ₂)
    (p : Fin 1024) (q : Fin 128) :
    matmul dot_S1024x2048_S2048x128_S1024x128_1_0_0_1_n_n none L R (constant (F := Ideal) S1024x128 .f32 0x00000000#32)
        (ix2 p q)
      = ∑ j : Fin 2048, L (ix2 p j) * R (ix2 j q) := by
  rw [dotAgg_eq_plain]
  exact Cert.LibMatmulPlain.matmul_plain_zero_apply (M := 1024) (K := 2048) (N := 128) none L R p q

/-- The weight product into the zero accumulator at (p, q): the sum over d of L (p, d) · R (d, q). -/
theorem matmulLin_apply {φ₁ φ₂ : FTy} (L : FVec Ideal S1024x128 φ₁) (R : FVec Ideal S128x128 φ₂)
    (p : Fin 1024) (q : Fin 128) :
    matmul dot_S1024x128_S128x128_S1024x128_1_0_0_1_n_n none L R (constant (F := Ideal) S1024x128 .f32 0x00000000#32)
        (ix2 p q)
      = ∑ d : Fin 128, L (ix2 p d) * R (ix2 d q) := by
  rw [dotLin_eq_plain]
  exact Cert.LibMatmulPlain.matmul_plain_zero_apply (M := 1024) (K := 128) (N := 128) none L R p q

/-! ## The first layer's kernel -/

/-- The block that starts the running total is zero at every entry. -/
theorem pay1_apply (p : Fin 1024) (q : Fin 128) : k0_pay1 (F := Ideal) (ix2 p q) = 0 := by
  unfold k0_pay1
  rw [shapeCast_self]
  exact Ideal.ofBits_zero_f32

/-- One accumulation step at (p, q): the running total there plus the sum over the block's 2048 columns j of
    A-block (p, j) · X-block (j, q). -/
theorem pay2_apply (v3 : Vec Ideal S1024x2048 .f32) (v8 : Vec Ideal S2048x128 .f32) (v10 : Vec Ideal S1024x128 .f32)
    (p : Fin 1024) (q : Fin 128) :
    k0_pay2 (F := Ideal) v3 v8 v10 (ix2 p q) = v10 (ix2 p q) + ∑ j : Fin 2048, v3 (ix2 p j) * v8 (ix2 j q) := by
  unfold k0_pay2
  rw [shapeCast_self]
  refine (addf_apply _ _ _).trans ?_
  exact congrArg (v10 (ix2 p q) + ·) (matmulAgg_apply (truncf .bf16 v3 bitsLt_bf16_f32) (truncf .bf16 v8 bitsLt_bf16_f32) p q)

/-- The first layer's stored entry (p, q): the finished total times the weights, cut off below at zero. -/
theorem pay3_apply (v19 : Vec Ideal S1024x128 .f32) (v21 : Vec Ideal S128x128 .f32) (p : Fin 1024) (q : Fin 128) :
    k0_pay3 (F := Ideal) v19 v21 (ix2 p q) = max (∑ d : Fin 128, v19 (ix2 p d) * v21 (ix2 d q)) 0 := by
  unfold k0_pay3
  rw [shapeCast_self]
  refine (truncf_apply (ψ := .bf16) _ bitsLt_bf16_f32 (ix2 p q)).trans ?_
  refine (maximumf_apply _ _ (ix2 p q)).trans ?_
  rw [matmulLin_apply (truncf .bf16 v19 bitsLt_bf16_f32) (truncf .bf16 v21 bitsLt_bf16_f32) p q]
  exact congrArg (max _) Ideal.ofBits_zero_f32

/-! ## The second layer's kernel -/

/-- The block that starts the second layer's running total is zero at every entry. -/
theorem pay1'_apply (p : Fin 1024) (q : Fin 128) : k1_pay1 (F := Ideal) (ix2 p q) = 0 := by
  unfold k1_pay1
  rw [shapeCast_self]
  exact Ideal.ofBits_zero_f32

/-- One accumulation step of the second layer at (p, q); the hidden block arrives in the narrow format already. -/
theorem pay2'_apply (v3 : Vec Ideal S1024x2048 .f32) (v8 : Vec Ideal S2048x128 .bf16) (v10 : Vec Ideal S1024x128 .f32)
    (p : Fin 1024) (q : Fin 128) :
    k1_pay2 (F := Ideal) v3 v8 v10 (ix2 p q) = v10 (ix2 p q) + ∑ j : Fin 2048, v3 (ix2 p j) * v8 (ix2 j q) := by
  unfold k1_pay2
  rw [shapeCast_self, shapeCast_self]
  refine (addf_apply _ _ _).trans ?_
  exact congrArg (v10 (ix2 p q) + ·) (matmulAgg_apply (truncf .bf16 v3 bitsLt_bf16_f32) v8 p q)

/-- The second layer's stored entry (p, q): the finished total times the weights, with no cut-off. -/
theorem pay3'_apply (v19 : Vec Ideal S1024x128 .f32) (v21 : Vec Ideal S128x128 .f32) (p : Fin 1024) (q : Fin 128) :
    k1_pay3 (F := Ideal) v19 v21 (ix2 p q) = ∑ d : Fin 128, v19 (ix2 p d) * v21 (ix2 d q) := by
  unfold k1_pay3
  rw [shapeCast_self]
  exact matmulLin_apply (truncf .bf16 v19 bitsLt_bf16_f32) (truncf .bf16 v21 bitsLt_bf16_f32) p q

end Cert.Gcn.Pay
-- ==== Proof.KiR0Value.lean ====
/-
  What each kind of point of the first aggregation call leaves, entry by entry on the extended reals.

  At grid point (row block, column block k) the body holds a 1024 × 2048 block of A, the whole 16384 × 128 feature matrix,
  of which it reads the 2048 rows from row 2048 · k on, the 128 × 128 weight matrix and the 1024 × 128 running total. What
  it leaves in the running total is, at (p, q): at a first column block, zero plus the sum over the block's columns j of
  A-block (p, j) · features (2048 · k + j, q); at a later one, the total it found there plus that sum. At a last column
  block it also leaves the row block of the result: at (p, q) the sum over d of the finished total at (p, d) times the
  weight at (d, q), cut off below at zero. First, for any float values, each thing left is the body's arithmetic applied
  to what the body loaded; then that arithmetic is read at an entry on the extended reals.
-/
import proofs.«119406_j84456236909326_2_alg».proof.Proof.KiR0Frame
import proofs.«119406_j84456236909326_2_alg».proof.Proof.PayIdeal

set_option maxRecDepth 16384

noncomputable section

namespace Cert.KernelIdeal.R0V

open Idealize.ShloMosaic Idealize.ShloMosaic.TcCoe Idealize.ShloMosaic.Tactic Idealize.ShloMosaic.ValueIdx
open Idealize.SL.Sem
open Cert.KernelIdeal Cert.KernelIdeal.Gen
open scoped BigOperators

/-- The zero offsets, however spelt. -/
theorem hz : (![0, 0] : Fin 2 → Nat) = fun _ => 0 := funext fun a => by fin_cases a <;> rfl

/-- Row j of column block k's rows of the feature matrix is a row of it: 2048 · k + j is below 16384 (k is below 8). -/
theorem row_lt (i : grid0.Coords) (j : Fin 2048) : 2048 * (i 1).val + j.val < 16384 := by
  have hk : (i 1).val < 8 := (i 1).isLt
  have := j.isLt; omega

section AnyValues
variable {F : FTy → Type} [FloatOps F]

/-- The 2048 rows of the feature matrix the body reads at a point: those from the point's row offset on. -/
abbrev xblk (i : grid0.Coords) (x1 : Vec F S16384x128 .f32) : Vec F S2048x128 .f32 :=
  View.ld x1 (Rect.unit (s := S16384x128) (k0_off1 i) S2048x128.size (k0_off1_inb i))

/-- Its entry (j, q) is the feature matrix's entry (2048 · k + j, q). -/
theorem xblk_apply (i : grid0.Coords) (x1 : Vec F S16384x128 .f32) (j : Fin 2048) (q : Fin 128) :
    xblk i x1 (ix2 j q) = x1 (ix2 ⟨2048 * (i 1).val + j.val, row_lt i j⟩ q) := by
  have e0 : k0_off1 i 0 = 2048 * (i 1).val := congrFun (k0_off1_eq i) 0
  have e1 : k0_off1 i 1 = 0 := congrFun (k0_off1_eq i) 1
  refine congrArg x1 (funext fun a => Fin.ext ?_)
  match a with
  | ⟨0, _⟩ => show k0_off1 i 0 + 1 * j.val = 2048 * (i 1).val + j.val; omega
  | ⟨1, _⟩ => show k0_off1 i 1 + 1 * q.val = q.val; omega

/-- A first column block leaves one accumulation step over the zero block. -/
theorem sFirst_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : R0.condFirst i) (hc1 : ¬R0.condLast i)
    (x0 : Vec F S1024x2048 .f32) (x1 : Vec F S16384x128 .f32) (x2 : Vec F S128x128 .f32) :
    R0.sFirst c i arg2 harg2 arg3 harg3 arg4 harg4 arg5 harg5 arg6 harg6 hc0 hc1 x0 x1 x2 = k0_pay2 x0 (xblk i x1) k0_pay1 := by
  unfold R0.sFirst
  rw [View.read_writes_eq_canon _ _ _ (R0.scoverFirst c i arg2 harg2 arg3 harg3 arg4 harg4 arg5 harg5 arg6 harg6 hc0 hc1 x0 x1 x2)]
  unfold R0.runFirst
  dsimp only
  sl_unfold_run_names
  rw [View.canon_cons_unit_zero (S := S1024x128) hz, View.readCov_unit_zero (S := S1024x128) _ hz]
  simp only [View.readAt_eq_ld, harg2.read_unread, harg3.read_unread, View.ld_unit_zero (S := S1024x2048) hz]

/-- A middle column block leaves one accumulation step over the total it found. -/
theorem sMid_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : ¬R0.condLast i)
    (x0 : Vec F S1024x2048 .f32) (x1 : Vec F S16384x128 .f32) (x2 : Vec F S128x128 .f32) (xs : Vec F S1024x128 .f32) :
    R0.sMid c i arg2 harg2 arg3 harg3 arg4 harg4 arg5 harg5 arg6 harg6 hc0 hc1 x0 x1 x2 xs = k0_pay2 x0 (xblk i x1) xs := by
  unfold R0.sMid
  rw [View.read_writes_eq_canon _ _ _ (R0.scoverMid c i arg2 harg2 arg3 harg3 arg4 harg4 arg5 harg5 arg6 harg6 hc0 hc1 x0 x1 x2 xs)]
  unfold R0.runMid
  dsimp only
  sl_unfold_run_names
  rw [View.canon_unit_zero (S := S1024x128) hz]
  simp only [View.readAt_eq_ld, harg2.read_unread, harg3.read_unread, harg6.read_unread, View.ld_unit_zero (S := S1024x2048) hz,
    View.ld_unit_zero (S := S1024x128) hz]

/-- A last column block leaves the same step in the running total, -/
theorem sLast_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : R0.condLast i)
    (x0 : Vec F S1024x2048 .f32) (x1 : Vec F S16384x128 .f32) (x2 : Vec F S128x128 .f32) (xs : Vec F S1024x128 .f32) :
    R0.sLast c i arg2 harg2 arg3 harg3 arg4 harg4 arg5 harg5 arg6 harg6 hc0 hc1 x0 x1 x2 xs = k0_pay2 x0 (xblk i x1) xs := by
  unfold R0.sLast
  rw [View.read_writes_eq_canon _ _ _ (R0.scoverLast c i arg2 harg2 arg3 harg3 arg4 harg4 arg5 harg5 arg6 harg6 hc0 hc1 x0 x1 x2 xs)]
  unfold R0.runLast
  dsimp only
  sl_unfold_run_names
  rw [View.canon_unit_zero (S := S1024x128) hz]
  simp only [View.readAt_eq_ld, harg2.read_unread, harg3.read_unread, harg6.read_unread, View.ld_unit_zero (S := S1024x2048) hz,
    View.ld_unit_zero (S := S1024x128) hz]

/-- and, in the result window, the finished total times the weights, cut off below at zero. -/
theorem oLast_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : R0.condLast i)
    (x0 : Vec F S1024x2048 .f32) (x1 : Vec F S16384x128 .f32) (x2 : Vec F S128x128 .f32) (xs : Vec F S1024x128 .f32) :
    R0.oLast c i arg2 harg2 arg3 harg3 arg4 harg4 arg5 harg5 arg6 harg6 hc0 hc1 x0 x1 x2 xs = k0_pay3 (k0_pay2 x0 (xblk i x1) xs) x2 := by
  unfold R0.oLast
  rw [View.read_writes_eq_canon _ _ _ (R0.coverLast c i arg2 harg2 arg3 harg3 arg4 harg4 arg5 harg5 arg6 harg6 hc0 hc1 x0 x1 x2 xs)]
  unfold R0.runLast
  dsimp only
  sl_unfold_run_names
  rw [View.canon_unit_zero (S := S1024x128) hz, View.readCov_unit_zero (S := S1024x128) _ hz]
  simp only [View.readAt_eq_ld, harg2.read_unread, harg3.read_unread, harg4.read_unread, harg6.read_unread,
    View.ld_unit_zero (S := S1024x2048) hz, View.ld_unit_zero (S := S1024x128) hz, View.ld_unit_zero (S := S128x128) hz]

end AnyValues

/-! ## On the extended reals, at an entry -/

/-- One accumulation step at (p, q), with the feature block's rows named in the feature matrix. -/
theorem step_apply (i : grid0.Coords) (x0 : Vec Ideal S1024x2048 .f32) (x1 : Vec Ideal S16384x128 .f32)
    (xs : Vec Ideal S1024x128 .f32) (p : Fin 1024) (q : Fin 128) :
    k0_pay2 (F := Ideal) x0 (xblk i x1) xs (ix2 p q)
      = xs (ix2 p q) + ∑ j : Fin 2048, x0 (ix2 p j) * x1 (ix2 ⟨2048 * (i 1).val + j.val, row_lt i j⟩ q) :=
  (Cert.Gcn.Pay.pay2_apply x0 (xblk i x1) xs p q).trans
    (congrArg (xs (ix2 p q) + ·) (Finset.sum_congr rfl fun j _ => congrArg (x0 (ix2 p j) * ·) (xblk_apply i x1 j q)))

/-- What a first column block leaves in the running total at (p, q). -/
theorem sFirst_apply (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : R0.condFirst i) (hc1 : ¬R0.condLast i)
    (x0 : Vec Ideal S1024x2048 .f32) (x1 : Vec Ideal S16384x128 .f32) (x2 : Vec Ideal S128x128 .f32) (p : Fin 1024) (q : Fin 128) :
    R0.sFirst (F := Ideal) c i arg2 harg2 arg3 harg3 arg4 harg4 arg5 harg5 arg6 harg6 hc0 hc1 x0 x1 x2 (ix2 p q)
      = 0 + ∑ j : Fin 2048, x0 (ix2 p j) * x1 (ix2 ⟨2048 * (i 1).val + j.val, row_lt i j⟩ q) := by
  rw [sFirst_eq]
  refine (step_apply i x0 x1 (k0_pay1 (F := Ideal)) p q).trans ?_
  rw [Cert.Gcn.Pay.pay1_apply]

/-- What a middle column block leaves in the running total at (p, q). -/
theorem sMid_apply (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : ¬R0.condLast i)
    (x0 : Vec Ideal S1024x2048 .f32) (x1 : Vec Ideal S16384x128 .f32) (x2 : Vec Ideal S128x128 .f32) (xs : Vec Ideal S1024x128 .f32)
    (p : Fin 1024) (q : Fin 128) :
    R0.sMid (F := Ideal) c i arg2 harg2 arg3 harg3 arg4 harg4 arg5 harg5 arg6 harg6 hc0 hc1 x0 x1 x2 xs (ix2 p q)
      = xs (ix2 p q) + ∑ j : Fin 2048, x0 (ix2 p j) * x1 (ix2 ⟨2048 * (i 1).val + j.val, row_lt i j⟩ q) := by
  rw [sMid_eq]
  exact step_apply i x0 x1 xs p q

/-- What a last column block leaves in the running total at (p, q). -/
theorem sLast_apply (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : R0.condLast i)
    (x0 : Vec Ideal S1024x2048 .f32) (x1 : Vec Ideal S16384x128 .f32) (x2 : Vec Ideal S128x128 .f32) (xs : Vec Ideal S1024x128 .f32)
    (p : Fin 1024) (q : Fin 128) :
    R0.sLast (F := Ideal) c i arg2 harg2 arg3 harg3 arg4 harg4 arg5 harg5 arg6 harg6 hc0 hc1 x0 x1 x2 xs (ix2 p q)
      = xs (ix2 p q) + ∑ j : Fin 2048, x0 (ix2 p j) * x1 (ix2 ⟨2048 * (i 1).val + j.val, row_lt i j⟩ q) := by
  rw [sLast_eq]
  exact step_apply i x0 x1 xs p q

/-- What a last column block leaves in the result window at (p, q): the finished total times the weights, cut off below at
    zero. -/
theorem oLast_apply (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .bf16) (harg5 : arg5.IsWhole) (arg6 : Memref sig .tc .vmem S1024x128 .f32) (harg6 : arg6.IsWhole) (hc0 : ¬R0.condFirst i) (hc1 : R0.condLast i)
    (x0 : Vec Ideal S1024x2048 .f32) (x1 : Vec Ideal S16384x128 .f32) (x2 : Vec Ideal S128x128 .f32) (xs : Vec Ideal S1024x128 .f32)
    (p : Fin 1024) (q : Fin 128) :
    R0.oLast (F := Ideal) c i arg2 harg2 arg3 harg3 arg4 harg4 arg5 harg5 arg6 harg6 hc0 hc1 x0 x1 x2 xs (ix2 p q)
      = max (∑ d : Fin 128, R0.sLast (F := Ideal) c i arg2 harg2 arg3 harg3 arg4 harg4 arg5 harg5 arg6 harg6 hc0 hc1 x0 x1 x2 xs (ix2 p d) * x2 (ix2 d q)) 0 := by
  rw [oLast_eq, sLast_eq]
  exact Cert.Gcn.Pay.pay3_apply (k0_pay2 x0 (xblk i x1) xs) x2 p q

end Cert.KernelIdeal.R0V

end
-- ==== Proof.Spec.lean ====
/-
  The two-layer graph convolution as functions of the argument arrays, entry by entry, on the extended reals.

  With A the n × n adjacency matrix (n = 16384), X the n × 128 features and T1, T2 two 128 × 128 matrices (the transposed
  weights), the hidden layer is H = max((A · X) · T1, 0) and the result is (A · H) · T2. Every product is the plain sum
  over the contraction index of the product of the two entries; nothing is regrouped here. The indices of the arrays are
  written by coordinates.
-/
import Idealize.ShloMosaic.PureOps.Ideal
import Idealize.ShloMosaic.Lib.ValueIdx

namespace Cert.Gcn

open Idealize.ShloMosaic Idealize.ShloMosaic.ValueIdx
open scoped BigOperators

/-- Entry (r, d) of the aggregation A · M of an n × 128 matrix M: the sum over all n columns m of A (r, m) · M (m, d). -/
noncomputable def agg (A : (⟨2, ![16384, 16384]⟩ : Shape).Idx → EReal) (M : (⟨2, ![16384, 128]⟩ : Shape).Idx → EReal)
    (r : Fin 16384) (d : Fin 128) : EReal :=
  ∑ m : Fin 16384, A (ix2 r m) * M (ix2 m d)

/-- Entry (r, h) of Y · T for an n × 128 matrix Y given entry by entry and a 128 × 128 matrix T. -/
noncomputable def lin (Y : Fin 16384 → Fin 128 → EReal) (T : (⟨2, ![128, 128]⟩ : Shape).Idx → EReal)
    (r : Fin 16384) (h : Fin 128) : EReal :=
  ∑ d : Fin 128, Y r d * T (ix2 d h)

/-- The hidden layer as an array: entry (r, h) is max(((A · X) · T1)(r, h), 0). -/
noncomputable def hid (A : (⟨2, ![16384, 16384]⟩ : Shape).Idx → EReal) (X : (⟨2, ![16384, 128]⟩ : Shape).Idx → EReal)
    (T1 : (⟨2, ![128, 128]⟩ : Shape).Idx → EReal) : (⟨2, ![16384, 128]⟩ : Shape).Idx → EReal :=
  fun i => max (lin (agg A X) T1 ⟨(i 0).val, (i 0).isLt⟩ ⟨(i 1).val, (i 1).isLt⟩) 0

/-- The hidden layer at an index written by coordinates. -/
theorem hid_ix2 (A : (⟨2, ![16384, 16384]⟩ : Shape).Idx → EReal) (X : (⟨2, ![16384, 128]⟩ : Shape).Idx → EReal)
    (T1 : (⟨2, ![128, 128]⟩ : Shape).Idx → EReal) (r : Fin 16384) (h : Fin 128) :
    hid A X T1 (ix2 r h) = max (lin (agg A X) T1 r h) 0 := rfl

/-- Entry (r, o) of the result (A · H) · T2. -/
noncomputable def out (A : (⟨2, ![16384, 16384]⟩ : Shape).Idx → EReal) (X : (⟨2, ![16384, 128]⟩ : Shape).Idx → EReal)
    (T1 T2 : (⟨2, ![128, 128]⟩ : Shape).Idx → EReal) (r : Fin 16384) (o : Fin 128) : EReal :=
  lin (agg A (hid A X T1)) T2 r o

end Cert.Gcn
-- ==== Proof.LibBlockSum.lean ====
/-
  Summing a sequence block by block.

  A sequence of n * w terms of an additive commutative monoid is cut into n consecutive blocks of w terms: block j holds
  the terms at positions j * w + k for k below w. The running total that starts from zero and adds one block's sum after
  another, nested to the left as ((0 + B0) + B1) + ..., ends at the sum of the whole sequence: every position below n * w
  is j * w + k for exactly one pair (j, k), so the sum over the positions is the sum over the pairs, block by block.
  The instance for four blocks of 1024 terms of a sequence of 4096 terms is stated with literal sizes.
-/
import Mathlib.Algebra.BigOperators.Fin

namespace Cert.BlockSum

open scoped BigOperators

variable {M : Type*} [AddCommMonoid M]

/-- Position k of block j lies in the sequence: j * w + k is below n * w when j is below n and k below w. -/
theorem idx_lt {n w : ℕ} (j : Fin n) (k : Fin w) : j.val * w + k.val < n * w :=
  calc j.val * w + k.val < j.val * w + w := Nat.add_lt_add_left k.isLt _
    _ = (j.val + 1) * w := (Nat.succ_mul _ _).symm
    _ ≤ n * w := Nat.mul_le_mul_right _ j.isLt

/-- The sum of block j: the w terms at positions j * w + k. -/
def blockSum (w : ℕ) {n : ℕ} (f : Fin (n * w) → M) (j : Fin n) : M :=
  ∑ k : Fin w, f ⟨j.val * w + k.val, idx_lt j k⟩

/-- The running total after the first m blocks, accumulated block by block from zero and nested to the left:
    ((0 + B0) + B1) + ... -/
def accBlocks (w : ℕ) {n : ℕ} (f : Fin (n * w) → M) : (m : ℕ) → m ≤ n → M
  | 0, _ => 0
  | m + 1, h => accBlocks w f m (Nat.le_of_succ_le h) + blockSum w f ⟨m, h⟩

/-- The running total after m blocks is the sum of the first m blocks' sums. -/
theorem accBlocks_eq_sum (w : ℕ) {n : ℕ} (f : Fin (n * w) → M) :
    ∀ (m : ℕ) (h : m ≤ n), accBlocks w f m h = ∑ j : Fin m, blockSum w f ⟨j.val, Nat.lt_of_lt_of_le j.isLt h⟩
  | 0, _ => (Finset.sum_empty).symm
  | m + 1, h => by
    rw [accBlocks, accBlocks_eq_sum w f m (Nat.le_of_succ_le h), Fin.sum_univ_castSucc]
    rfl

/-- The blocks' sums add up to the sum of the whole sequence: the positions below n * w are the pairs (block, place in
    the block). -/
theorem sum_blockSum (w : ℕ) {n : ℕ} (f : Fin (n * w) → M) : ∑ j : Fin n, blockSum w f j = ∑ t : Fin (n * w), f t := by
  rw [← Equiv.sum_comp finProdFinEquiv f, Fintype.sum_prod_type]
  refine Finset.sum_congr rfl fun j _ => Finset.sum_congr rfl fun k _ => congrArg f (Fin.ext ?_)
  show j.val * w + k.val = k.val + w * j.val
  rw [Nat.add_comm, Nat.mul_comm]

/-- Accumulating all n blocks from zero gives the sum of the whole sequence. -/
theorem accBlocks_all (w : ℕ) {n : ℕ} (f : Fin (n * w) → M) : accBlocks w f n le_rfl = ∑ t : Fin (n * w), f t :=
  (accBlocks_eq_sum w f n le_rfl).trans (sum_blockSum w f)

/-! ## Four blocks of 1024 terms -/

/-- The sum of block j of a sequence of 4096 terms cut into four blocks of 1024: the terms at positions j * 1024 + k. -/
def blockSum4 (f : Fin 4096 → M) (j : Fin 4) : M :=
  ∑ k : Fin 1024, f ⟨j.val * 1024 + k.val, by have := j.isLt; have := k.isLt; omega⟩

/-- With the literal sizes, a block's sum is the general one (4 * 1024 is 4096). -/
theorem blockSum4_eq (f : Fin 4096 → M) (j : Fin 4) : blockSum4 f j = blockSum 1024 (n := 4) f j := rfl

/-- The four blocks' sums, accumulated from zero and nested to the left, are the sum of all 4096 terms. -/
theorem sum_four_blocks (f : Fin 4096 → M) :
    (((0 + blockSum4 f 0) + blockSum4 f 1) + blockSum4 f 2) + blockSum4 f 3 = ∑ t : Fin 4096, f t := by
  rw [zero_add, blockSum4_eq, blockSum4_eq, blockSum4_eq, blockSum4_eq]
  exact (Fin.sum_univ_four (fun j : Fin 4 => blockSum 1024 (n := 4) f j)).symm.trans (sum_blockSum 1024 (n := 4) f)

end Cert.BlockSum
-- ==== Proof.BlockAgg.lean ====
/-
  The aggregation A · M accumulated block by block.

  Row r of A has 16384 entries; they are cut into eight consecutive blocks of 2048 columns, block k holding the columns
  2048 · k + j for j below 2048. The partial product of block k at (r, d) is the sum over its columns of
  A (r, 2048 · k + j) · M (2048 · k + j, d). The running total that starts from zero and adds one block's partial product
  after another, nested to the left, ends after the eighth block at the whole sum over the 16384 columns, which is the
  entry (r, d) of A · M: every column is 2048 · k + j for exactly one pair (k, j). Only the commutative monoid of the
  extended reals under addition is used, so nothing has to be finite.
-/
import proofs.«119406_j84456236909326_2_alg».proof.Proof.Spec
import proofs.«119406_j84456236909326_2_alg».proof.Proof.LibBlockSum

namespace Cert.Gcn

open Idealize.ShloMosaic Idealize.ShloMosaic.ValueIdx
open scoped BigOperators

/-- Column j of block k is a column of the matrix: 2048 · k + j is below 16384 for k below 8 and j below 2048. -/
theorem blk_lt (k : Fin 8) (j : Fin 2048) : 2048 * k.val + j.val < 16384 := by
  have := k.isLt; have := j.isLt; omega

section
variable (A : (⟨2, ![16384, 16384]⟩ : Shape).Idx → EReal) (M : (⟨2, ![16384, 128]⟩ : Shape).Idx → EReal)
  (r : Fin 16384) (d : Fin 128)

/-- The partial product of block k at (r, d): the sum over the block's 2048 columns j of
    A (r, 2048 · k + j) · M (2048 · k + j, d). -/
noncomputable def blk (k : Fin 8) : EReal :=
  ∑ j : Fin 2048, A (ix2 r ⟨2048 * k.val + j.val, blk_lt k j⟩) * M (ix2 ⟨2048 * k.val + j.val, blk_lt k j⟩ d)

/-- The running total at (r, d) after the first k blocks, from zero and nested to the left: ((0 + B0) + B1) + ... -/
noncomputable def accUpTo : (k : ℕ) → k ≤ 8 → EReal
  | 0, _ => 0
  | k + 1, h => accUpTo k (Nat.le_of_succ_le h) + blk A M r d ⟨k, h⟩

/-- The 16384 terms of the entry (r, d) of A · M as one sequence of 8 · 2048 terms. -/
noncomputable def aggTerm (t : Fin (8 * 2048)) : EReal := A (ix2 r t) * M (ix2 t d)

/-- A block's partial product is the sum of its block of the sequence of terms: 2048 · k + j and k · 2048 + j are the
    same column. -/
theorem blk_eq_blockSum (k : Fin 8) :
    blk A M r d k = Cert.BlockSum.blockSum 2048 (n := 8) (aggTerm A M r d) k := by
  unfold blk Cert.BlockSum.blockSum
  refine Finset.sum_congr rfl fun j _ => ?_
  have e : (⟨2048 * k.val + j.val, blk_lt k j⟩ : Fin 16384) = ⟨k.val * 2048 + j.val, Cert.BlockSum.idx_lt k j⟩ :=
    Fin.ext (congrArg (· + j.val) (Nat.mul_comm 2048 k.val))
  rw [e]
  rfl

/-- The running total after k blocks is the running total of the sequence of terms after k blocks. -/
theorem accUpTo_eq_accBlocks :
    ∀ (k : ℕ) (h : k ≤ 8), accUpTo A M r d k h = Cert.BlockSum.accBlocks 2048 (n := 8) (aggTerm A M r d) k h
  | 0, _ => rfl
  | k + 1, h => by
    rw [accUpTo, Cert.BlockSum.accBlocks, accUpTo_eq_accBlocks k (Nat.le_of_succ_le h), blk_eq_blockSum]

/-- After all eight blocks the running total is the entry (r, d) of A · M. -/
theorem accUpTo_all : accUpTo A M r d 8 le_rfl = agg A M r d :=
  (accUpTo_eq_accBlocks A M r d 8 le_rfl).trans (Cert.BlockSum.accBlocks_all 2048 (n := 8) (aggTerm A M r d))

end

end Cert.Gcn
-- ==== Proof.KiR0Acc.lean ====
/-
  The first aggregation call's running total and result, point by point, against the specification.

  Point t of the 16 × 8 grid is row block t / 8 and column block t % 8. After the body at point t the running total holds,
  at (p, q), the sum of the partial products of the column blocks 0, …, t % 8 of row 1024 · (t / 8) + p of A against
  column q of the feature matrix, accumulated from zero and nested to the left: at a first column block the body starts
  from zero and adds block 0's partial product, at a later one it adds the block's partial product to what the point
  before left, and the point before is in the same row block. By induction on the point. After a last column block all
  eight blocks are in, so the total is the entry of A · M, and what the body leaves in the result window is that row of
  A · M times the weight matrix, cut off below at zero: the hidden layer's entry.
-/
import proofs.«119406_j84456236909326_2_alg».proof.Proof.KiR0Value
import proofs.«119406_j84456236909326_2_alg».proof.Proof.KiR0Blocks
import proofs.«119406_j84456236909326_2_alg».proof.Proof.BlockAgg
import proofs.«119406_j84456236909326_2_alg».proof.Proof.Spec

set_option maxRecDepth 16384

noncomputable section

namespace Cert.KernelIdeal.R0A

open Idealize.ShloMosaic Idealize.ShloMosaic.TcCoe Idealize.ShloMosaic.ValueIdx
open Idealize.SL.Sem
open Cert.KernelIdeal Cert.KernelIdeal.Gen
open scoped BigOperators

/-! ## The running total of the specification, one block at a time -/

section Spec
variable (A : (⟨2, ![16384, 16384]⟩ : Shape).Idx → EReal) (M : (⟨2, ![16384, 128]⟩ : Shape).Idx → EReal)
  (r : Fin 16384) (d : Fin 128)

/-- After no block the running total is zero, however the count is spelt. -/
theorem accUpTo_zero (k : ℕ) (hk : k ≤ 8) (h0 : k = 0) : Cert.Gcn.accUpTo A M r d k hk = 0 := by
  subst h0; rfl

/-- One more block adds its partial product. -/
theorem accUpTo_succ (k : ℕ) (hk : k + 1 ≤ 8) :
    Cert.Gcn.accUpTo A M r d (k + 1) hk
      = Cert.Gcn.accUpTo A M r d k (Nat.le_of_succ_le hk) + Cert.Gcn.blk A M r d ⟨k, hk⟩ := rfl

end Spec

/-- Row p of row block t / 8 is a row of the matrix. -/
theorem rowb_lt (t : Fin cfg0.N) (p : Fin 1024) : 1024 * (t.val / 8) + p.val < 16384 := by
  have := R0B.lt128 t; have := p.isLt; omega

/-- A point's column block is one of the eight, so one more than it is a count of blocks. -/
theorem colb_le (t : Fin cfg0.N) : t.val % 8 + 1 ≤ 8 := Nat.succ_le_of_lt (Nat.mod_lt _ (by decide))

section
variable (V : (c : Dev nD) → (b : Ref sig .tc) → Buf (Elt Ideal) ((c : Thread nD τ).loc b))

/-- A column of column block t % 8 is a column of the matrix. -/
theorem colb_lt (t : Fin cfg0.N) (j : Fin 2048) : 2048 * (t.val % 8) + j.val < 16384 := by
  have := j.isLt; omega

/-- The partial product the body adds at point t, at (p, q), is the specification's partial product of column block
    t % 8 at row 1024 · (t / 8) + p, for any two blocks x0, x1 that read as the point's blocks do: x0 is rows
    1024 · (t / 8) … and columns 2048 · (t % 8) … of A, x1 is the whole feature matrix, and the rows the body reads of
    it start at 2048 · (t % 8). -/
theorem blockTerm_eq (c : Dev nD) (t : Fin cfg0.N) (x0 : Vec Ideal S1024x2048 .f32) (x1 : Vec Ideal S16384x128 .f32)
    (hx0 : ∀ (p : Fin 1024) (j : Fin 2048), x0 (ix2 p j)
      = V c main_arg0 (ix2 (⟨1024 * (t.val / 8) + p.val, rowb_lt t p⟩ : Fin 16384) (⟨2048 * (t.val % 8) + j.val, colb_lt t j⟩ : Fin 16384)))
    (hx1 : ∀ (r : Fin 16384) (d : Fin 128), x1 (ix2 r d) = V c main_arg1 (ix2 r d))
    (p : Fin 1024) (q : Fin 128) (r : Fin 16384) (hr : r.val = 1024 * (t.val / 8) + p.val) (k : Fin 8) (hk : k.val = t.val % 8) :
    ∑ j : Fin 2048, x0 (ix2 p j) * x1 (ix2 ⟨2048 * (grid0.coords t 1).val + j.val, R0V.row_lt (grid0.coords t) j⟩ q)
      = Cert.Gcn.blk (V c main_arg0) (V c main_arg1) r q k := by
  have ec := R0B.coords_col t
  unfold Cert.Gcn.blk
  refine Finset.sum_congr rfl fun j _ => ?_
  have er : (⟨1024 * (t.val / 8) + p.val, rowb_lt t p⟩ : Fin 16384) = r := Fin.ext hr.symm
  have ej : (⟨2048 * (t.val % 8) + j.val, colb_lt t j⟩ : Fin 16384) = ⟨2048 * k.val + j.val, Cert.Gcn.blk_lt k j⟩ :=
    Fin.ext (by show 2048 * (t.val % 8) + j.val = 2048 * k.val + j.val; omega)
  have ei : (⟨2048 * (grid0.coords t 1).val + j.val, R0V.row_lt (grid0.coords t) j⟩ : Fin 16384)
      = ⟨2048 * k.val + j.val, Cert.Gcn.blk_lt k j⟩ :=
    Fin.ext (by show 2048 * (grid0.coords t 1).val + j.val = 2048 * k.val + j.val; omega)
  rw [hx0 p j, hx1 _ q, er, ej, ei]

/-- After the body at point t the running total at (p, q) is the specification's running total of row 1024 · (t / 8) + p
    after the column blocks 0, …, t % 8; the row and the count are variables tied to the point by equations, so that the
    step from the point before needs only arithmetic. -/
theorem scratch_acc (c : Dev nD) : ∀ (n : ℕ) (t : Fin cfg0.N), t.val = n → ∀ (p : Fin 1024) (q : Fin 128) (r : Fin 16384)
    (hr : r.val = 1024 * (t.val / 8) + p.val) (k : ℕ) (hk : k ≤ 8) (hkn : k = t.val % 8 + 1),
    (R0.outsAt V c t.val t.isLt).2 (ix2 p q) = Cert.Gcn.accUpTo (V c main_arg0) (V c main_arg1) r q k hk := by
  intro n
  induction n using Nat.strong_induction_on with
  | _ n ih =>
    intro t htn p q r hr k hk hkn
    subst hkn
    refine Eq.trans ?_ (accUpTo_succ (V c main_arg0) (V c main_arg1) r q (t.val % 8) hk).symm
    by_cases h0 : t.val % 8 = 0
    · have h7 : ¬t.val % 8 = 7 := by omega
      rw [R0.outsAt_first V c t h0 h7]
      dsimp only
      refine (R0V.sFirst_apply c (grid0.coords t) (R0.ms_0 t) (R0.hs_0 t) (R0.ms_1 t) (R0.hs_1 t) (R0.ms_2 t) (R0.hs_2 t) (R0.ms_3 t) (R0.hs_3 t) R0.scM (Memref.isWhole_whole _) ((R0.hcondFirst t).mpr h0) (fun h => h7 ((R0.hcondLast t).mp h)) (R0.iblk V c 0 t) (R0.iblk V c 1 t) (R0.iblk V c 2 t) p q).trans ?_
      refine congrArg₂ (· + ·) (accUpTo_zero (V c main_arg0) (V c main_arg1) r q (t.val % 8) _ h0).symm ?_
      exact blockTerm_eq V c t (R0.iblk V c 0 t) (R0.iblk V c 1 t) (R0B.iblk0_apply V c t) (R0B.iblk1_apply V c t) p q r hr ⟨t.val % 8, hk⟩ rfl
    · have hprev : t.val - 1 < cfg0.N := Nat.lt_of_le_of_lt (Nat.sub_le _ _) t.isLt
      have hpos : 0 < t.val := Nat.pos_of_ne_zero fun e => h0 (by rw [e])
      have ihp := ih (t.val - 1) (by omega) ⟨t.val - 1, hprev⟩ rfl p q r
        (by show r.val = 1024 * ((t.val - 1) / 8) + p.val; omega) (t.val % 8) (Nat.le_of_succ_le hk)
        (by show t.val % 8 = (t.val - 1) % 8 + 1; omega)
      dsimp only at ihp
      by_cases h7 : t.val % 8 = 7
      · rw [R0.outsAt_last V c t h0 h7]
        dsimp only
        refine (R0V.sLast_apply c (grid0.coords t) (R0.ms_0 t) (R0.hs_0 t) (R0.ms_1 t) (R0.hs_1 t) (R0.ms_2 t) (R0.hs_2 t) (R0.ms_3 t) (R0.hs_3 t) R0.scM (Memref.isWhole_whole _) (fun h => h0 ((R0.hcondFirst t).mp h)) ((R0.hcondLast t).mpr h7) (R0.iblk V c 0 t) (R0.iblk V c 1 t) (R0.iblk V c 2 t) (R0.outsAt V c (t.val - 1) (Nat.lt_of_le_of_lt (Nat.sub_le _ _) t.isLt)).2 p q).trans ?_
        refine congrArg₂ (· + ·) ihp ?_
        exact blockTerm_eq V c t (R0.iblk V c 0 t) (R0.iblk V c 1 t) (R0B.iblk0_apply V c t) (R0B.iblk1_apply V c t) p q r hr ⟨t.val % 8, hk⟩ rfl
      · rw [R0.outsAt_mid V c t h0 h7]
        dsimp only
        refine (R0V.sMid_apply c (grid0.coords t) (R0.ms_0 t) (R0.hs_0 t) (R0.ms_1 t) (R0.hs_1 t) (R0.ms_2 t) (R0.hs_2 t) (R0.ms_3 t) (R0.hs_3 t) R0.scM (Memref.isWhole_whole _) (fun h => h0 ((R0.hcondFirst t).mp h)) (fun h => h7 ((R0.hcondLast t).mp h)) (R0.iblk V c 0 t) (R0.iblk V c 1 t) (R0.iblk V c 2 t) (R0.outsAt V c (t.val - 1) (Nat.lt_of_le_of_lt (Nat.sub_le _ _) t.isLt)).2 p q).trans ?_
        refine congrArg₂ (· + ·) ihp ?_
        exact blockTerm_eq V c t (R0.iblk V c 0 t) (R0.iblk V c 1 t) (R0B.iblk0_apply V c t) (R0B.iblk1_apply V c t) p q r hr ⟨t.val % 8, hk⟩ rfl

/-- The running total after the body at point t, at (p, q): the specification's running total of row 1024 · (t / 8) + p
    after t % 8 + 1 column blocks. -/
theorem scratch_eq (c : Dev nD) (t : Fin cfg0.N) (p : Fin 1024) (q : Fin 128) :
    (R0.outsAt V c t.val t.isLt).2 (ix2 p q)
      = Cert.Gcn.accUpTo (V c main_arg0) (V c main_arg1) ⟨1024 * (t.val / 8) + p.val, rowb_lt t p⟩ q (t.val % 8 + 1) (colb_le t) :=
  scratch_acc V c t.val t rfl p q ⟨1024 * (t.val / 8) + p.val, rowb_lt t p⟩ rfl (t.val % 8 + 1) (colb_le t) rfl

/-- What a last column block leaves in the result window, at (p, q): the hidden layer's entry at row 1024 · (t / 8) + p. -/
theorem out_eq (c : Dev nD) (t : Fin cfg0.N) (h7 : t.val % 8 = 7) (p : Fin 1024) (q : Fin 128) :
    (R0.outsAt V c t.val t.isLt).1 (ix2 p q)
      = Cert.Gcn.hid (V c main_arg0) (V c main_arg1) (V c main_v0) (ix2 ⟨1024 * (t.val / 8) + p.val, rowb_lt t p⟩ q) := by
  have h0 : ¬t.val % 8 = 0 := by omega
  have hs : ∀ d : Fin 128, (R0.outsAt V c t.val t.isLt).2 (ix2 p d)
      = Cert.Gcn.agg (V c main_arg0) (V c main_arg1) ⟨1024 * (t.val / 8) + p.val, rowb_lt t p⟩ d := fun d =>
    (scratch_acc V c t.val t rfl p d ⟨1024 * (t.val / 8) + p.val, rowb_lt t p⟩ rfl 8 le_rfl (by omega)).trans
      (Cert.Gcn.accUpTo_all (V c main_arg0) (V c main_arg1) ⟨1024 * (t.val / 8) + p.val, rowb_lt t p⟩ d)
  rw [Cert.Gcn.hid_ix2]
  unfold Cert.Gcn.lin
  rw [R0.outsAt_last V c t h0 h7] at hs ⊢
  dsimp only at hs ⊢
  refine (R0V.oLast_apply c (grid0.coords t) (R0.ms_0 t) (R0.hs_0 t) (R0.ms_1 t) (R0.hs_1 t) (R0.ms_2 t) (R0.hs_2 t) (R0.ms_3 t) (R0.hs_3 t) R0.scM (Memref.isWhole_whole _) (fun h => h0 ((R0.hcondFirst t).mp h)) ((R0.hcondLast t).mpr h7) (R0.iblk V c 0 t) (R0.iblk V c 1 t) (R0.iblk V c 2 t) (R0.outsAt V c (t.val - 1) (Nat.lt_of_le_of_lt (Nat.sub_le _ _) t.isLt)).2 p q).trans ?_
  refine congrArg (max · 0) (Finset.sum_congr rfl fun d _ => ?_)
  exact congrArg₂ (· * ·) (hs d) (R0B.iblk2_apply V c t d q)

end

end Cert.KernelIdeal.R0A

end
-- ==== Proof.KiR1Value.lean ====
/-
  What each kind of point of the second aggregation call leaves, entry by entry on the extended reals.

  At grid point (row block, column block k) the body holds a 1024 × 2048 block of A, the whole 16384 × 128 hidden layer,
  of which it reads the 2048 rows from row 2048 · k on, the 128 × 128 weight matrix and the 1024 × 128 running total. What
  it leaves in the running total is, at (p, q): at a first column block, zero plus the sum over the block's columns j of
  A-block (p, j) · hidden (2048 · k + j, q); at a later one, the total it found there plus that sum. At a last column
  block it also leaves the row block of the result: at (p, q) the sum over d of the finished total at (p, d) times the
  weight at (d, q), with no cut-off. First, for any float values, each thing left is the body's arithmetic applied to what
  the body loaded; then that arithmetic is read at an entry on the extended reals.
-/
import proofs.«119406_j84456236909326_2_alg».proof.Proof.KiR1Frame
import proofs.«119406_j84456236909326_2_alg».proof.Proof.PayIdeal

set_option maxRecDepth 16384

noncomputable section

namespace Cert.KernelIdeal.R1V

open Idealize.ShloMosaic Idealize.ShloMosaic.TcCoe Idealize.ShloMosaic.Tactic Idealize.ShloMosaic.ValueIdx
open Idealize.SL.Sem
open Cert.KernelIdeal Cert.KernelIdeal.Gen
open scoped BigOperators

/-- The zero offsets, however spelt. -/
theorem hz : (![0, 0] : Fin 2 → Nat) = fun _ => 0 := funext fun a => by fin_cases a <;> rfl

/-- Row j of column block k's rows of the hidden layer is a row of it: 2048 · k + j is below 16384 (k is below 8). -/
theorem row_lt (i : grid1.Coords) (j : Fin 2048) : 2048 * (i 1).val + j.val < 16384 := by
  have hk : (i 1).val < 8 := (i 1).isLt
  have := j.isLt; omega

section AnyValues
variable {F : FTy → Type} [FloatOps F]

/-- The 2048 rows of the hidden layer the body reads at a point: those from the point's row offset on. -/
abbrev xblk (i : grid1.Coords) (x1 : Vec F S16384x128 .bf16) : Vec F S2048x128 .bf16 :=
  View.ld x1 (Rect.unit (s := S16384x128) (k1_off1 i) S2048x128.size (k1_off1_inb i))

/-- Its entry (j, q) is the hidden layer's entry (2048 · k + j, q). -/
theorem xblk_apply (i : grid1.Coords) (x1 : Vec F S16384x128 .bf16) (j : Fin 2048) (q : Fin 128) :
    xblk i x1 (ix2 j q) = x1 (ix2 ⟨2048 * (i 1).val + j.val, row_lt i j⟩ q) := by
  have e0 : k1_off1 i 0 = 2048 * (i 1).val := congrFun (k1_off1_eq i) 0
  have e1 : k1_off1 i 1 = 0 := congrFun (k1_off1_eq i) 1
  refine congrArg x1 (funext fun a => Fin.ext ?_)
  match a with
  | ⟨0, _⟩ => show k1_off1 i 0 + 1 * j.val = 2048 * (i 1).val + j.val; omega
  | ⟨1, _⟩ => show k1_off1 i 1 + 1 * q.val = q.val; omega

/-- A first column block leaves one accumulation step over the zero block. -/
theorem sFirst_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : R1.condFirst i) (hc1 : ¬R1.condLast i)
    (x0 : Vec F S1024x2048 .f32) (x1 : Vec F S16384x128 .bf16) (x2 : Vec F S128x128 .f32) :
    R1.sFirst c i arg2 harg2 arg3 harg3 arg4 harg4 arg5 harg5 arg6 harg6 hc0 hc1 x0 x1 x2 = k1_pay2 x0 (xblk i x1) k1_pay1 := by
  unfold R1.sFirst
  rw [View.read_writes_eq_canon _ _ _ (R1.scoverFirst c i arg2 harg2 arg3 harg3 arg4 harg4 arg5 harg5 arg6 harg6 hc0 hc1 x0 x1 x2)]
  unfold R1.runFirst
  dsimp only
  sl_unfold_run_names
  rw [View.canon_cons_unit_zero (S := S1024x128) hz, View.readCov_unit_zero (S := S1024x128) _ hz]
  simp only [View.readAt_eq_ld, harg2.read_unread, harg3.read_unread, View.ld_unit_zero (S := S1024x2048) hz]

/-- A middle column block leaves one accumulation step over the total it found. -/
theorem sMid_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : ¬R1.condLast i)
    (x0 : Vec F S1024x2048 .f32) (x1 : Vec F S16384x128 .bf16) (x2 : Vec F S128x128 .f32) (xs : Vec F S1024x128 .f32) :
    R1.sMid c i arg2 harg2 arg3 harg3 arg4 harg4 arg5 harg5 arg6 harg6 hc0 hc1 x0 x1 x2 xs = k1_pay2 x0 (xblk i x1) xs := by
  unfold R1.sMid
  rw [View.read_writes_eq_canon _ _ _ (R1.scoverMid c i arg2 harg2 arg3 harg3 arg4 harg4 arg5 harg5 arg6 harg6 hc0 hc1 x0 x1 x2 xs)]
  unfold R1.runMid
  dsimp only
  sl_unfold_run_names
  rw [View.canon_unit_zero (S := S1024x128) hz]
  simp only [View.readAt_eq_ld, harg2.read_unread, harg3.read_unread, harg6.read_unread, View.ld_unit_zero (S := S1024x2048) hz,
    View.ld_unit_zero (S := S1024x128) hz]

/-- A last column block leaves the same step in the running total, -/
theorem sLast_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : R1.condLast i)
    (x0 : Vec F S1024x2048 .f32) (x1 : Vec F S16384x128 .bf16) (x2 : Vec F S128x128 .f32) (xs : Vec F S1024x128 .f32) :
    R1.sLast c i arg2 harg2 arg3 harg3 arg4 harg4 arg5 harg5 arg6 harg6 hc0 hc1 x0 x1 x2 xs = k1_pay2 x0 (xblk i x1) xs := by
  unfold R1.sLast
  rw [View.read_writes_eq_canon _ _ _ (R1.scoverLast c i arg2 harg2 arg3 harg3 arg4 harg4 arg5 harg5 arg6 harg6 hc0 hc1 x0 x1 x2 xs)]
  unfold R1.runLast
  dsimp only
  sl_unfold_run_names
  rw [View.canon_unit_zero (S := S1024x128) hz]
  simp only [View.readAt_eq_ld, harg2.read_unread, harg3.read_unread, harg6.read_unread, View.ld_unit_zero (S := S1024x2048) hz,
    View.ld_unit_zero (S := S1024x128) hz]

/-- and, in the result window, the finished total times the weights, with no cut-off. -/
theorem oLast_eq (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : R1.condLast i)
    (x0 : Vec F S1024x2048 .f32) (x1 : Vec F S16384x128 .bf16) (x2 : Vec F S128x128 .f32) (xs : Vec F S1024x128 .f32) :
    R1.oLast c i arg2 harg2 arg3 harg3 arg4 harg4 arg5 harg5 arg6 harg6 hc0 hc1 x0 x1 x2 xs = k1_pay3 (k1_pay2 x0 (xblk i x1) xs) x2 := by
  unfold R1.oLast
  rw [View.read_writes_eq_canon _ _ _ (R1.coverLast c i arg2 harg2 arg3 harg3 arg4 harg4 arg5 harg5 arg6 harg6 hc0 hc1 x0 x1 x2 xs)]
  unfold R1.runLast
  dsimp only
  sl_unfold_run_names
  rw [View.canon_unit_zero (S := S1024x128) hz, View.readCov_unit_zero (S := S1024x128) _ hz]
  simp only [View.readAt_eq_ld, harg2.read_unread, harg3.read_unread, harg4.read_unread, harg6.read_unread,
    View.ld_unit_zero (S := S1024x2048) hz, View.ld_unit_zero (S := S1024x128) hz, View.ld_unit_zero (S := S128x128) hz]

end AnyValues

/-! ## On the extended reals, at an entry -/

/-- One accumulation step at (p, q), with the hidden block's rows named in the hidden layer. -/
theorem step_apply (i : grid1.Coords) (x0 : Vec Ideal S1024x2048 .f32) (x1 : Vec Ideal S16384x128 .bf16)
    (xs : Vec Ideal S1024x128 .f32) (p : Fin 1024) (q : Fin 128) :
    k1_pay2 (F := Ideal) x0 (xblk i x1) xs (ix2 p q)
      = xs (ix2 p q) + ∑ j : Fin 2048, x0 (ix2 p j) * x1 (ix2 ⟨2048 * (i 1).val + j.val, row_lt i j⟩ q) :=
  (Cert.Gcn.Pay.pay2'_apply x0 (xblk i x1) xs p q).trans
    (congrArg (xs (ix2 p q) + ·) (Finset.sum_congr rfl fun j _ => congrArg (x0 (ix2 p j) * ·) (xblk_apply i x1 j q)))

/-- What a first column block leaves in the running total at (p, q). -/
theorem sFirst_apply (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : R1.condFirst i) (hc1 : ¬R1.condLast i)
    (x0 : Vec Ideal S1024x2048 .f32) (x1 : Vec Ideal S16384x128 .bf16) (x2 : Vec Ideal S128x128 .f32) (p : Fin 1024) (q : Fin 128) :
    R1.sFirst (F := Ideal) c i arg2 harg2 arg3 harg3 arg4 harg4 arg5 harg5 arg6 harg6 hc0 hc1 x0 x1 x2 (ix2 p q)
      = 0 + ∑ j : Fin 2048, x0 (ix2 p j) * x1 (ix2 ⟨2048 * (i 1).val + j.val, row_lt i j⟩ q) := by
  rw [sFirst_eq]
  refine (step_apply i x0 x1 (k1_pay1 (F := Ideal)) p q).trans ?_
  rw [Cert.Gcn.Pay.pay1'_apply]

/-- What a middle column block leaves in the running total at (p, q). -/
theorem sMid_apply (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : ¬R1.condLast i)
    (x0 : Vec Ideal S1024x2048 .f32) (x1 : Vec Ideal S16384x128 .bf16) (x2 : Vec Ideal S128x128 .f32) (xs : Vec Ideal S1024x128 .f32)
    (p : Fin 1024) (q : Fin 128) :
    R1.sMid (F := Ideal) c i arg2 harg2 arg3 harg3 arg4 harg4 arg5 harg5 arg6 harg6 hc0 hc1 x0 x1 x2 xs (ix2 p q)
      = xs (ix2 p q) + ∑ j : Fin 2048, x0 (ix2 p j) * x1 (ix2 ⟨2048 * (i 1).val + j.val, row_lt i j⟩ q) := by
  rw [sMid_eq]
  exact step_apply i x0 x1 xs p q

/-- What a last column block leaves in the running total at (p, q). -/
theorem sLast_apply (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : R1.condLast i)
    (x0 : Vec Ideal S1024x2048 .f32) (x1 : Vec Ideal S16384x128 .bf16) (x2 : Vec Ideal S128x128 .f32) (xs : Vec Ideal S1024x128 .f32)
    (p : Fin 1024) (q : Fin 128) :
    R1.sLast (F := Ideal) c i arg2 harg2 arg3 harg3 arg4 harg4 arg5 harg5 arg6 harg6 hc0 hc1 x0 x1 x2 xs (ix2 p q)
      = xs (ix2 p q) + ∑ j : Fin 2048, x0 (ix2 p j) * x1 (ix2 ⟨2048 * (i 1).val + j.val, row_lt i j⟩ q) := by
  rw [sLast_eq]
  exact step_apply i x0 x1 xs p q

/-- What a last column block leaves in the result window at (p, q): the finished total times the weights, with no
    cut-off. -/
theorem oLast_apply (c : Dev nD) (i : grid1.Coords) (arg2 : Memref sig .tc .vmem S1024x2048 .f32) (harg2 : arg2.IsWhole) (arg3 : Memref sig .tc .vmem S16384x128 .bf16) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬R1.condFirst i) (hc1 : R1.condLast i)
    (x0 : Vec Ideal S1024x2048 .f32) (x1 : Vec Ideal S16384x128 .bf16) (x2 : Vec Ideal S128x128 .f32) (xs : Vec Ideal S1024x128 .f32)
    (p : Fin 1024) (q : Fin 128) :
    R1.oLast (F := Ideal) c i arg2 harg2 arg3 harg3 arg4 harg4 arg5 harg5 arg6 harg6 hc0 hc1 x0 x1 x2 xs (ix2 p q)
      = ∑ d : Fin 128, R1.sLast (F := Ideal) c i arg2 harg2 arg3 harg3 arg4 harg4 arg5 harg5 arg6 harg6 hc0 hc1 x0 x1 x2 xs (ix2 p d) * x2 (ix2 d q) := by
  rw [oLast_eq, sLast_eq]
  exact Cert.Gcn.Pay.pay3'_apply (k1_pay2 x0 (xblk i x1) xs) x2 p q

end Cert.KernelIdeal.R1V

end
-- ==== Proof.KiR1Acc.lean ====
/-
  The second aggregation call's running total and result, point by point, against the specification.

  Point t of the 16 × 8 grid is row block t / 8 and column block t % 8. After the body at point t the running total holds,
  at (p, q), the sum of the partial products of the column blocks 0, …, t % 8 of row 1024 · (t / 8) + p of A against
  column q of the hidden-layer matrix, accumulated from zero and nested to the left: at a first column block the body starts
  from zero and adds block 0's partial product, at a later one it adds the block's partial product to what the point
  before left, and the point before is in the same row block. By induction on the point. After a last column block all
  eight blocks are in, so the total is the entry of A · M, and what the body leaves in the result window is that row of
  A · M times the weight matrix, with no cut-off: the entry of the result.
-/
import proofs.«119406_j84456236909326_2_alg».proof.Proof.KiR1Value
import proofs.«119406_j84456236909326_2_alg».proof.Proof.KiR1Blocks
import proofs.«119406_j84456236909326_2_alg».proof.Proof.BlockAgg
import proofs.«119406_j84456236909326_2_alg».proof.Proof.Spec

set_option maxRecDepth 16384

noncomputable section

namespace Cert.KernelIdeal.R1A

open Idealize.ShloMosaic Idealize.ShloMosaic.TcCoe Idealize.ShloMosaic.ValueIdx
open Idealize.SL.Sem
open Cert.KernelIdeal Cert.KernelIdeal.Gen
open scoped BigOperators

/-! ## The running total of the specification, one block at a time -/

section Spec
variable (A : (⟨2, ![16384, 16384]⟩ : Shape).Idx → EReal) (M : (⟨2, ![16384, 128]⟩ : Shape).Idx → EReal)
  (r : Fin 16384) (d : Fin 128)

/-- After no block the running total is zero, however the count is spelt. -/
theorem accUpTo_zero (k : ℕ) (hk : k ≤ 8) (h0 : k = 0) : Cert.Gcn.accUpTo A M r d k hk = 0 := by
  subst h0; rfl

/-- One more block adds its partial product. -/
theorem accUpTo_succ (k : ℕ) (hk : k + 1 ≤ 8) :
    Cert.Gcn.accUpTo A M r d (k + 1) hk
      = Cert.Gcn.accUpTo A M r d k (Nat.le_of_succ_le hk) + Cert.Gcn.blk A M r d ⟨k, hk⟩ := rfl

end Spec

/-- Row p of row block t / 8 is a row of the matrix. -/
theorem rowb_lt (t : Fin cfg1.N) (p : Fin 1024) : 1024 * (t.val / 8) + p.val < 16384 := by
  have := R1B.lt128 t; have := p.isLt; omega

/-- A point's column block is one of the eight, so one more than it is a count of blocks. -/
theorem colb_le (t : Fin cfg1.N) : t.val % 8 + 1 ≤ 8 := Nat.succ_le_of_lt (Nat.mod_lt _ (by decide))

section
variable (V : (c : Dev nD) → (b : Ref sig .tc) → Buf (Elt Ideal) ((c : Thread nD τ).loc b))

/-- A column of column block t % 8 is a column of the matrix. -/
theorem colb_lt (t : Fin cfg1.N) (j : Fin 2048) : 2048 * (t.val % 8) + j.val < 16384 := by
  have := j.isLt; omega

/-- The partial product the body adds at point t, at (p, q), is the specification's partial product of column block
    t % 8 at row 1024 · (t / 8) + p, for any two blocks x0, x1 that read as the point's blocks do: x0 is rows
    1024 · (t / 8) … and columns 2048 · (t % 8) … of A, x1 is the whole hidden-layer matrix, and the rows the body reads of
    it start at 2048 · (t % 8). -/
theorem blockTerm_eq (c : Dev nD) (t : Fin cfg1.N) (x0 : Vec Ideal S1024x2048 .f32) (x1 : Vec Ideal S16384x128 .bf16)
    (hx0 : ∀ (p : Fin 1024) (j : Fin 2048), x0 (ix2 p j)
      = V c main_arg0 (ix2 (⟨1024 * (t.val / 8) + p.val, rowb_lt t p⟩ : Fin 16384) (⟨2048 * (t.val % 8) + j.val, colb_lt t j⟩ : Fin 16384)))
    (hx1 : ∀ (r : Fin 16384) (d : Fin 128), x1 (ix2 r d) = V c main_v2 (ix2 r d))
    (p : Fin 1024) (q : Fin 128) (r : Fin 16384) (hr : r.val = 1024 * (t.val / 8) + p.val) (k : Fin 8) (hk : k.val = t.val % 8) :
    ∑ j : Fin 2048, x0 (ix2 p j) * x1 (ix2 ⟨2048 * (grid1.coords t 1).val + j.val, R1V.row_lt (grid1.coords t) j⟩ q)
      = Cert.Gcn.blk (V c main_arg0) (V c main_v2) r q k := by
  have ec := R1B.coords_col t
  unfold Cert.Gcn.blk
  refine Finset.sum_congr rfl fun j _ => ?_
  have er : (⟨1024 * (t.val / 8) + p.val, rowb_lt t p⟩ : Fin 16384) = r := Fin.ext hr.symm
  have ej : (⟨2048 * (t.val % 8) + j.val, colb_lt t j⟩ : Fin 16384) = ⟨2048 * k.val + j.val, Cert.Gcn.blk_lt k j⟩ :=
    Fin.ext (by show 2048 * (t.val % 8) + j.val = 2048 * k.val + j.val; omega)
  have ei : (⟨2048 * (grid1.coords t 1).val + j.val, R1V.row_lt (grid1.coords t) j⟩ : Fin 16384)
      = ⟨2048 * k.val + j.val, Cert.Gcn.blk_lt k j⟩ :=
    Fin.ext (by show 2048 * (grid1.coords t 1).val + j.val = 2048 * k.val + j.val; omega)
  rw [hx0 p j, hx1 _ q, er, ej, ei]

/-- After the body at point t the running total at (p, q) is the specification's running total of row 1024 · (t / 8) + p
    after the column blocks 0, …, t % 8; the row and the count are variables tied to the point by equations, so that the
    step from the point before needs only arithmetic. -/
theorem scratch_acc (c : Dev nD) : ∀ (n : ℕ) (t : Fin cfg1.N), t.val = n → ∀ (p : Fin 1024) (q : Fin 128) (r : Fin 16384)
    (hr : r.val = 1024 * (t.val / 8) + p.val) (k : ℕ) (hk : k ≤ 8) (hkn : k = t.val % 8 + 1),
    (R1.outsAt V c t.val t.isLt).2 (ix2 p q) = Cert.Gcn.accUpTo (V c main_arg0) (V c main_v2) r q k hk := by
  intro n
  induction n using Nat.strong_induction_on with
  | _ n ih =>
    intro t htn p q r hr k hk hkn
    subst hkn
    refine Eq.trans ?_ (accUpTo_succ (V c main_arg0) (V c main_v2) r q (t.val % 8) hk).symm
    by_cases h0 : t.val % 8 = 0
    · have h7 : ¬t.val % 8 = 7 := by omega
      rw [R1.outsAt_first V c t h0 h7]
      dsimp only
      refine (R1V.sFirst_apply c (grid1.coords t) (R1.ms_0 t) (R1.hs_0 t) (R1.ms_1 t) (R1.hs_1 t) (R1.ms_2 t) (R1.hs_2 t) (R1.ms_3 t) (R1.hs_3 t) R1.scM (Memref.isWhole_whole _) ((R1.hcondFirst t).mpr h0) (fun h => h7 ((R1.hcondLast t).mp h)) (R1.iblk V c 0 t) (R1.iblk V c 1 t) (R1.iblk V c 2 t) p q).trans ?_
      refine congrArg₂ (· + ·) (accUpTo_zero (V c main_arg0) (V c main_v2) r q (t.val % 8) _ h0).symm ?_
      exact blockTerm_eq V c t (R1.iblk V c 0 t) (R1.iblk V c 1 t) (R1B.iblk0_apply V c t) (R1B.iblk1_apply V c t) p q r hr ⟨t.val % 8, hk⟩ rfl
    · have hprev : t.val - 1 < cfg1.N := Nat.lt_of_le_of_lt (Nat.sub_le _ _) t.isLt
      have hpos : 0 < t.val := Nat.pos_of_ne_zero fun e => h0 (by rw [e])
      have ihp := ih (t.val - 1) (by omega) ⟨t.val - 1, hprev⟩ rfl p q r
        (by show r.val = 1024 * ((t.val - 1) / 8) + p.val; omega) (t.val % 8) (Nat.le_of_succ_le hk)
        (by show t.val % 8 = (t.val - 1) % 8 + 1; omega)
      dsimp only at ihp
      by_cases h7 : t.val % 8 = 7
      · rw [R1.outsAt_last V c t h0 h7]
        dsimp only
        refine (R1V.sLast_apply c (grid1.coords t) (R1.ms_0 t) (R1.hs_0 t) (R1.ms_1 t) (R1.hs_1 t) (R1.ms_2 t) (R1.hs_2 t) (R1.ms_3 t) (R1.hs_3 t) R1.scM (Memref.isWhole_whole _) (fun h => h0 ((R1.hcondFirst t).mp h)) ((R1.hcondLast t).mpr h7) (R1.iblk V c 0 t) (R1.iblk V c 1 t) (R1.iblk V c 2 t) (R1.outsAt V c (t.val - 1) (Nat.lt_of_le_of_lt (Nat.sub_le _ _) t.isLt)).2 p q).trans ?_
        refine congrArg₂ (· + ·) ihp ?_
        exact blockTerm_eq V c t (R1.iblk V c 0 t) (R1.iblk V c 1 t) (R1B.iblk0_apply V c t) (R1B.iblk1_apply V c t) p q r hr ⟨t.val % 8, hk⟩ rfl
      · rw [R1.outsAt_mid V c t h0 h7]
        dsimp only
        refine (R1V.sMid_apply c (grid1.coords t) (R1.ms_0 t) (R1.hs_0 t) (R1.ms_1 t) (R1.hs_1 t) (R1.ms_2 t) (R1.hs_2 t) (R1.ms_3 t) (R1.hs_3 t) R1.scM (Memref.isWhole_whole _) (fun h => h0 ((R1.hcondFirst t).mp h)) (fun h => h7 ((R1.hcondLast t).mp h)) (R1.iblk V c 0 t) (R1.iblk V c 1 t) (R1.iblk V c 2 t) (R1.outsAt V c (t.val - 1) (Nat.lt_of_le_of_lt (Nat.sub_le _ _) t.isLt)).2 p q).trans ?_
        refine congrArg₂ (· + ·) ihp ?_
        exact blockTerm_eq V c t (R1.iblk V c 0 t) (R1.iblk V c 1 t) (R1B.iblk0_apply V c t) (R1B.iblk1_apply V c t) p q r hr ⟨t.val % 8, hk⟩ rfl

/-- The running total after the body at point t, at (p, q): the specification's running total of row 1024 · (t / 8) + p
    after t % 8 + 1 column blocks. -/
theorem scratch_eq (c : Dev nD) (t : Fin cfg1.N) (p : Fin 1024) (q : Fin 128) :
    (R1.outsAt V c t.val t.isLt).2 (ix2 p q)
      = Cert.Gcn.accUpTo (V c main_arg0) (V c main_v2) ⟨1024 * (t.val / 8) + p.val, rowb_lt t p⟩ q (t.val % 8 + 1) (colb_le t) :=
  scratch_acc V c t.val t rfl p q ⟨1024 * (t.val / 8) + p.val, rowb_lt t p⟩ rfl (t.val % 8 + 1) (colb_le t) rfl

/-- What a last column block leaves in the result window, at (p, q): row 1024 · (t / 8) + p of A · M times column q of the
    weight matrix. -/
theorem out_eq (c : Dev nD) (t : Fin cfg1.N) (h7 : t.val % 8 = 7) (p : Fin 1024) (q : Fin 128) :
    (R1.outsAt V c t.val t.isLt).1 (ix2 p q)
      = Cert.Gcn.lin (Cert.Gcn.agg (V c main_arg0) (V c main_v2)) (V c main_v1) ⟨1024 * (t.val / 8) + p.val, rowb_lt t p⟩ q := by
  have h0 : ¬t.val % 8 = 0 := by omega
  have hs : ∀ d : Fin 128, (R1.outsAt V c t.val t.isLt).2 (ix2 p d)
      = Cert.Gcn.agg (V c main_arg0) (V c main_v2) ⟨1024 * (t.val / 8) + p.val, rowb_lt t p⟩ d := fun d =>
    (scratch_acc V c t.val t rfl p d ⟨1024 * (t.val / 8) + p.val, rowb_lt t p⟩ rfl 8 le_rfl (by omega)).trans
      (Cert.Gcn.accUpTo_all (V c main_arg0) (V c main_v2) ⟨1024 * (t.val / 8) + p.val, rowb_lt t p⟩ d)
  unfold Cert.Gcn.lin
  rw [R1.outsAt_last V c t h0 h7] at hs ⊢
  dsimp only at hs ⊢
  refine (R1V.oLast_apply c (grid1.coords t) (R1.ms_0 t) (R1.hs_0 t) (R1.ms_1 t) (R1.hs_1 t) (R1.ms_2 t) (R1.hs_2 t) (R1.ms_3 t) (R1.hs_3 t) R1.scM (Memref.isWhole_whole _) (fun h => h0 ((R1.hcondFirst t).mp h)) ((R1.hcondLast t).mpr h7) (R1.iblk V c 0 t) (R1.iblk V c 1 t) (R1.iblk V c 2 t) (R1.outsAt V c (t.val - 1) (Nat.lt_of_le_of_lt (Nat.sub_le _ _) t.isLt)).2 p q).trans ?_
  refine Finset.sum_congr rfl fun d _ => ?_
  exact congrArg₂ (· * ·) (hs d) (R1B.iblk2_apply V c t d q)

end

end Cert.KernelIdeal.R1A

end
-- ==== Proof.KiFinal.lean ====
/-
  What the two calls leave in their result arrays, at the ideal instance, as functions of the program's arguments.

  The first call's result array ends at the hidden layer H = max((A · X) · T1, 0): its write-backs cover the array row block by
  row block, each block being the hidden layer's rows, because the scratch holds the row block's whole aggregation after the
  last column block. The second call finds H in the array it reads, so its result array ends at (A · H) · T2.
-/
import proofs.«119406_j84456236909326_2_alg».proof.Proof.KiEntry
import proofs.«119406_j84456236909326_2_alg».proof.Proof.KiR0Blocks
import proofs.«119406_j84456236909326_2_alg».proof.Proof.KiR1Blocks
import proofs.«119406_j84456236909326_2_alg».proof.Proof.KiR0Acc
import proofs.«119406_j84456236909326_2_alg».proof.Proof.KiR1Acc
import proofs.«119406_j84456236909326_2_alg».proof.Proof.Spec

noncomputable section

namespace Cert.KernelIdeal.Whole

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The first call leaves the hidden layer in its result array. -/
theorem o2_eq (c : Dev nD) :
    o2 m c = Cert.Gcn.hid (m ((c : Thread nD τ).loc main_arg0)) (m ((c : Thread nD τ).loc main_arg1))
      (transpose S128x128 [1, 0] (m ((c : Thread nD τ).loc main_arg2)) transposes_S128x128_S128x128_1_0) := by
  unfold o2
  refine R0B.final_of (Ve0 m) c _ (fun t h7 p q => ?_)
  rw [R0A.out_eq (Ve0 m) c t h7 p q, Ve0_arg0, Ve0_arg1, Ve0_v0]

/-- The second call leaves the result of the two layers in its result array. -/
theorem o3_eq (c : Dev nD) :
    o3 m c = fun i => Cert.Gcn.out (m ((c : Thread nD τ).loc main_arg0)) (m ((c : Thread nD τ).loc main_arg1))
      (transpose S128x128 [1, 0] (m ((c : Thread nD τ).loc main_arg2)) transposes_S128x128_S128x128_1_0)
      (transpose S128x128 [1, 0] (m ((c : Thread nD τ).loc main_arg3)) transposes_S128x128_S128x128_1_0)
      ⟨(i 0).val, (i 0).isLt⟩ ⟨(i 1).val, (i 1).isLt⟩ := by
  unfold o3
  refine R1B.final_of (Ve1 m) c _ (fun t h7 p q => ?_)
  rw [R1A.out_eq (Ve1 m) c t h7 p q, Ve1_arg0, Ve1_v2, Ve1_v1, o2_eq]
  rfl

end Cert.KernelIdeal.Whole

end
-- ==== Proof.RefValue.lean ====
/-
  The reference program's result, entry by entry, on the extended reals.

  The reference computes the two-layer graph convolution by array operations: the product A · X, the transpose of the first
  weight matrix, the product with it, the maximum with a broadcast zero, the product of A with that hidden layer, the
  transpose of the second weight matrix and the product with it. On the extended reals each product read at (r, c) is the
  plain sum over the contraction index of the product of the two entries, the broadcast zero is the real 0 and the maximum is
  taken entry by entry. So the composed result at (r, o) is the specification's `out` at the two transposed weight
  matrices. The transposes are kept as whole arrays: they are never read at an index.
-/
import proofs.«119406_j84456236909326_2_alg».proof.Proof.Gen.ReferenceIdeal.Read
import proofs.«119406_j84456236909326_2_alg».proof.Proof.Spec

noncomputable section

namespace Cert.Gcn.Ref

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

/-! ## The index functions of the four products, by coordinates -/

/-- Row r, contraction index k, of the left operand of A · X. -/
theorem lidx_v0 (r : Fin 16384) (d : Fin 128) (k : Fin 16384) : lidx_main_v0 (ix2 r d) k = ix2 r k :=
  funext fun a => Fin.ext (by match a with | ⟨0, _⟩ => rfl | ⟨1, _⟩ => rfl)
/-- Contraction index k, column d, of the right operand of A · X. -/
theorem ridx_v0 (r : Fin 16384) (d : Fin 128) (k : Fin 16384) : ridx_main_v0 (ix2 r d) k = ix2 k d :=
  funext fun a => Fin.ext (by match a with | ⟨0, _⟩ => rfl | ⟨1, _⟩ => rfl)
/-- Row r, contraction index k, of the left operand of the product with the first transposed weight matrix. -/
theorem lidx_v2 (r : Fin 16384) (h : Fin 128) (k : Fin 128) : lidx_main_v2 (ix2 r h) k = ix2 r k :=
  funext fun a => Fin.ext (by match a with | ⟨0, _⟩ => rfl | ⟨1, _⟩ => rfl)
/-- Contraction index k, column h, of its right operand. -/
theorem ridx_v2 (r : Fin 16384) (h : Fin 128) (k : Fin 128) : ridx_main_v2 (ix2 r h) k = ix2 k h :=
  funext fun a => Fin.ext (by match a with | ⟨0, _⟩ => rfl | ⟨1, _⟩ => rfl)
/-- Row r, contraction index k, of the left operand of A · H. -/
theorem lidx_v4 (r : Fin 16384) (d : Fin 128) (k : Fin 16384) : lidx_main_v4 (ix2 r d) k = ix2 r k :=
  funext fun a => Fin.ext (by match a with | ⟨0, _⟩ => rfl | ⟨1, _⟩ => rfl)
/-- Contraction index k, column d, of the right operand of A · H. -/
theorem ridx_v4 (r : Fin 16384) (d : Fin 128) (k : Fin 16384) : ridx_main_v4 (ix2 r d) k = ix2 k d :=
  funext fun a => Fin.ext (by match a with | ⟨0, _⟩ => rfl | ⟨1, _⟩ => rfl)
/-- Row r, contraction index k, of the left operand of the product with the second transposed weight matrix. -/
theorem lidx_v6 (r : Fin 16384) (o : Fin 128) (k : Fin 128) : lidx_main_v6 (ix2 r o) k = ix2 r k :=
  funext fun a => Fin.ext (by match a with | ⟨0, _⟩ => rfl | ⟨1, _⟩ => rfl)
/-- Contraction index k, column o, of its right operand. -/
theorem ridx_v6 (r : Fin 16384) (o : Fin 128) (k : Fin 128) : ridx_main_v6 (ix2 r o) k = ix2 k o :=
  funext fun a => Fin.ext (by match a with | ⟨0, _⟩ => rfl | ⟨1, _⟩ => rfl)

/-! ## The stages, one by one -/

variable (A : (⟨S16384x16384, .f32⟩ : BufTy).Contents (Elt Ideal)) (X : (⟨S16384x128, .f32⟩ : BufTy).Contents (Elt Ideal))
  (W1 W2 : (⟨S128x128, .f32⟩ : BufTy).Contents (Elt Ideal))

/-- The first product at (r, d) is the aggregation A · X there. -/
theorem v0_apply (r : Fin 16384) (d : Fin 128) : val_main_v0 (F := Ideal) A X (ix2 r d) = agg A X r d := by
  rw [val_main_v0_apply]
  exact Finset.sum_congr rfl fun k _ => by rw [lidx_v0, ridx_v0]

/-- The second product at (r, h) is (A · X) · T1 there, T1 the first weight matrix transposed. -/
theorem v2_apply (r : Fin 16384) (h : Fin 128) :
    val_main_v2 (F := Ideal) A X W1 (ix2 r h)
      = lin (agg A X) (transpose S128x128 [1, 0] W1 transposes_S128x128_S128x128_1_0) r h := by
  rw [val_main_v2_apply]
  exact Finset.sum_congr rfl fun k _ => by rw [lidx_v2, ridx_v2, v0_apply]; rfl

/-- The broadcast constant of the maximum is the real 0 at every index. -/
theorem zero_apply (i : S16384x128.Idx) : val_main_call0_v0 (F := Ideal) i = 0 := by
  rw [val_main_call0_v0_apply, val_main_call0_cst_apply]
  exact Ideal.ofBits_zero_f32

/-- The maximum with zero is the hidden layer, as an array. -/
theorem v3_eq :
    val_main_v3 (F := Ideal) A X W1 = hid A X (transpose S128x128 [1, 0] W1 transposes_S128x128_S128x128_1_0) := by
  funext i
  obtain ⟨r, h, rfl⟩ : ∃ (r : Fin 16384) (h : Fin 128), i = ix2 r h := ⟨i 0, i 1, eq_ix2 i⟩
  rw [val_main_v3_apply, zero_apply, v2_apply, hid_ix2]
  rfl

/-- The third product at (r, d) is the aggregation A · H there. -/
theorem v4_apply (r : Fin 16384) (d : Fin 128) :
    val_main_v4 (F := Ideal) A X W1 (ix2 r d)
      = agg A (hid A X (transpose S128x128 [1, 0] W1 transposes_S128x128_S128x128_1_0)) r d := by
  rw [val_main_v4_apply, v3_eq]
  exact Finset.sum_congr rfl fun k _ => by rw [lidx_v4, ridx_v4]

/-- The specification's result at (r, o), written out as its last sum. -/
theorem out_eq (T1 T2 : (⟨S128x128, .f32⟩ : BufTy).Contents (Elt Ideal)) (r : Fin 16384) (o : Fin 128) :
    out A X T1 T2 r o = ∑ d : Fin 128, agg A (hid A X T1) r d * T2 (ix2 d o) := rfl

/-! ## The result -/

/-- The reference's result at (r, o) is the specification's result there, at the two transposed weight matrices. -/
theorem result_apply (r : Fin 16384) (o : Fin 128) :
    val_main_v6 (F := Ideal) A X W1 W2 (ix2 r o)
      = out A X (transpose S128x128 [1, 0] W1 transposes_S128x128_S128x128_1_0)
          (transpose S128x128 [1, 0] W2 transposes_S128x128_S128x128_1_0) r o := by
  rw [val_main_v6_apply, out_eq]
  refine Finset.sum_congr rfl fun k _ => ?_
  rw [lidx_v6, ridx_v6, v4_apply]
  rfl

/-- The reference's result as an array: entry (i 0, i 1) is the specification's result there. -/
theorem result_eq :
    val_main_v6 (F := Ideal) A X W1 W2
      = fun i => out A X (transpose S128x128 [1, 0] W1 transposes_S128x128_S128x128_1_0)
          (transpose S128x128 [1, 0] W2 transposes_S128x128_S128x128_1_0) ⟨(i 0).val, (i 0).isLt⟩ ⟨(i 1).val, (i 1).isLt⟩ := by
  funext i
  obtain ⟨r, o, rfl⟩ : ∃ (r : Fin 16384) (o : Fin 128), i = ix2 r o := ⟨i 0, i 1, eq_ix2 i⟩
  exact result_apply A X W1 W2 r o

/-! ## The run of the reference -/

/-- From any memory with zero counters every weakly fair execution of the reference ends with the result array holding
    the specification's result of the launch contents of the four arguments, entry by entry, and the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = (fun i => out (m ((c.tc : Thread nD τ).loc main_arg0)) (m ((c.tc : Thread nD τ).loc main_arg1))
            (transpose S128x128 [1, 0] (m ((c.tc : Thread nD τ).loc main_arg2)) transposes_S128x128_S128x128_1_0)
            (transpose S128x128 [1, 0] (m ((c.tc : Thread nD τ).loc main_arg3)) transposes_S128x128_S128x128_1_0)
            ⟨(i 0).val, (i 0).isLt⟩ ⟨(i 1).val, (i 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v6_eq (F := Ideal) _ _ _ _).trans (result_eq _ _ _ _)), (h c).2⟩)
    (Cert.ReferenceIdeal.Value.run (F := Ideal) m ρ)

end Cert.Gcn.Ref

end
-- ==== Proof.lean ====
/-
  A two-layer graph convolution: H = max((A · X) · W1ᵀ, 0), Out = (A · H) · W2ᵀ, for a 16384 × 16384 matrix A, 16384 × 128
  features X and two 128 × 128 weight matrices.

  The kernel computes each layer by one call over a 16 × 8 grid: a row block of 1024 rows of A is multiplied, column block by
  column block (2048 columns at a time), with the matching rows of the feature matrix, the products accumulated in a scratch
  that is zeroed at the first column block; at the last column block the total is multiplied by the transposed weight (and
  clamped at zero in the first layer) and stored as the row block of the layer's result. The reference computes each layer by
  whole matrix products. On the extended reals the two agree entry by entry: a change of float format is the identity, and
  a sum over 16384 terms taken as eight consecutive blocks of 2048, accumulated from zero, is the whole sum, because addition
  of extended reals is associative and commutative. No entry needs to be finite for that, so the precondition is not opened.

  The frames: each call runs point by point, its scratch at exactly the running total between points, and the arguments are
  only ever read. The idealized kernel is the kernel's own text read at the ideal instance, so nothing is to be preserved.
-/
import proofs.«119406_j84456236909326_2_alg».proof.Defs
import proofs.«119406_j84456236909326_2_alg».proof.Proof.Gen.Kernel
import proofs.«119406_j84456236909326_2_alg».proof.Proof.Gen.KernelIdeal
import proofs.«119406_j84456236909326_2_alg».proof.Proof.Gen.ReferenceIdeal
import proofs.«119406_j84456236909326_2_alg».proof.Proof.Gen.Pre_finite_inputs
import proofs.«119406_j84456236909326_2_alg».proof.Proof.KbWhole
import proofs.«119406_j84456236909326_2_alg».proof.Proof.KiRun
import proofs.«119406_j84456236909326_2_alg».proof.Proof.KiFinal
import proofs.«119406_j84456236909326_2_alg».proof.Proof.RefValue
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Whole.frame m ρ

/-- So does its idealization. -/
theorem frame_kernelIdeal : Cert.frame_KernelIdeal := fun m ρ _ => Cert.KernelIdeal.Whole.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the arguments, the kernel's result array and the reference's result both
    end at (A · max((A · X) · W1ᵀ, 0)) · W2ᵀ, entry by entry. -/
theorem algebraic : Cert.algebraic_KernelIdeal_ReferenceIdeal := by
  intro m ρ m' ρ' _ hagree
  refine ⟨fun c => Cert.KernelIdeal.Whole.o3 m c, Cert.KernelIdeal.Whole.run_out m ρ, ?_⟩
  refine (θ_run Cert.ReferenceIdeal.defs _ _).mono (fun _ h c => ⟨(h c).1.trans ?_, (h c).2⟩) (Cert.Gcn.Ref.run_out m' ρ')
  rw [(hagree c).1, (hagree c).2.1, (hagree c).2.2.1, (hagree c).2.2.2]
  exact (Cert.KernelIdeal.Whole.o3_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
